-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S8x256x64x64 : Shape := ⟨4, ![8, 256, 64, 64]⟩
abbrev S256x256 : Shape := ⟨2, ![256, 256]⟩
abbrev S256 : Shape := ⟨1, ![256]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S8x256x64x64 : S_.BroadcastsInDim S8x256x64x64 (![] : Fin 0 → Fin S8x256x64x64.rank)
  reducesTo_S8x256x64x64_S_d0_1_2_3 : S8x256x64x64.ReducesTo [0, 1, 2, 3] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_arg8 : FVec F S256x256 .f32) (main_arg9 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S8x4096x256 .f32) (main_arg1 : FVec F S8x256x64x64 .f32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S8x256x64x64 .f32 := Host.absf main_arg1
  let main_cst_0 : FVec F S_ .f32 := constant S_ .f32 0x7F800000#32
  let main_v5 : FVec F S8x256x64x64 .f32 := broadcastInDim S8x256x64x64 ![] bcast_S_S8x256x64x64 main_cst_0
  let main_v6 : IVec S8x256x64x64 1 := cmpf .olt main_v4 main_v5
  let main_c_1 : IVec S_ 1 := constantI S_ 1 1#1
  let main_v7 : IVec S_ 1 := (fun x v => Host.reduce IntOp.andi x v reducesTo_S8x256x64x64_S_d0_1_2_3 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S8x4096x256 : Shape := ⟨3, ![8, 4096, 256]⟩
abbrev S8x256x64x64 : Shape := ⟨4, ![8, 256, 64, 64]⟩
abbrev S256x256 : Shape := ⟨2, ![256, 256]⟩
abbrev S256 : Shape := ⟨1, ![256]⟩
abbrev S8x256x4096 : Shape := ⟨3, ![8, 256, 4096]⟩
abbrev S512x256 : Shape := ⟨2, ![512, 256]⟩
abbrev S512 : Shape := ⟨1, ![512]⟩
abbrev S512x1 : Shape := ⟨2, ![512, 1]⟩
abbrev S8x256x256 : Shape := ⟨3, ![8, 256, 256]⟩
abbrev S8x1x4096 : Shape := ⟨3, ![8, 1, 4096]⟩
abbrev S1x256x2048 : Shape := ⟨3, ![1, 256, 2048]⟩
abbrev S1x256x256 : Shape := ⟨3, ![1, 256, 256]⟩
abbrev S1x1x2048 : Shape := ⟨3, ![1, 1, 2048]⟩
abbrev S256x2048 : Shape := ⟨2, ![256, 2048]⟩
abbrev S512x2048 : Shape := ⟨2, ![512, 2048]⟩
abbrev S2048 : Shape := ⟨1, ![2048]⟩
abbrev S1x2048x256 : Shape := ⟨3, ![1, 2048, 256]⟩
abbrev S2048x256 : Shape := ⟨2, ![2048, 256]⟩
abbrev S1x256 : Shape := ⟨2, ![1, 256]⟩
abbrev S2048x1 : Shape := ⟨2, ![2048, 1]⟩

abbrev nBuf : Space → Nat
  | .hbm => 20
  | .vmem => 20
  | .smem => 0
  | _ => 0

abbrev bufTy : (tb : Table) → Fin (tcTables nBuf tb) → BufTy
  | .hbm, ⟨0, _⟩ => ⟨S8x4096x256, .f32⟩
  | .hbm, ⟨1, _⟩ => ⟨S8x256x64x64, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S8x256x4096, .f32⟩
  | .hbm, ⟨11, _⟩ => ⟨S512x256, .f32⟩
  | .hbm, ⟨12, _⟩ => ⟨S512x256, .bf16⟩
  | .hbm, ⟨13, _⟩ => ⟨S512, .f32⟩
  | .hbm, ⟨14, _⟩ => ⟨S512x1, .f32⟩
  | .hbm, ⟨15, _⟩ => ⟨S256x256, .bf16⟩
  | .hbm, ⟨16, _⟩ => ⟨S256x256, .bf16⟩
  | .hbm, ⟨17, _⟩ => ⟨S8x256x256, .f32⟩
  | .hbm, ⟨18, _⟩ => ⟨S8x1x4096, .f32⟩
  | .hbm, ⟨19, _⟩ => ⟨S8x4096x256, .f32⟩
  | .local _ .vmem, ⟨0, _⟩ => ⟨S1x256x2048, .f32⟩
  | .local _ .vmem, ⟨1, _⟩ => ⟨S1x256x2048, .f32⟩
  | .local _ .vmem, ⟨2, _⟩ => ⟨S512x256, .bf16⟩
  | .local _ .vmem, ⟨3, _⟩ => ⟨S512x1, .f32⟩
  | .local _ .vmem, ⟨4, _⟩ => ⟨S1x256x256, .f32⟩
  | .local _ .vmem, ⟨5, _⟩ => ⟨S1x256x256, .f32⟩
  | .local _ .vmem, ⟨6, _⟩ => ⟨S1x1x2048, .f32⟩
  | .local _ .vmem, ⟨7, _⟩ => ⟨S1x1x2048, .f32⟩
  | .local _ .vmem, ⟨8, _⟩ => ⟨S1x2048x256, .f32⟩
  | .local _ .vmem, ⟨9, _⟩ => ⟨S1x2048x256, .f32⟩
  | .local _ .vmem, ⟨10, _⟩ => ⟨S256x256, .bf16⟩
  | .local _ .vmem, ⟨11, _⟩ => ⟨S256, .f32⟩
  | .local _ .vmem, ⟨12, _⟩ => ⟨S1x256x256, .f32⟩
  | .local _ .vmem, ⟨13, _⟩ => ⟨S1x256x256, .f32⟩
  | .local _ .vmem, ⟨14, _⟩ => ⟨S1x1x2048, .f32⟩
  | .local _ .vmem, ⟨15, _⟩ => ⟨S1x1x2048, .f32⟩
  | .local _ .vmem, ⟨16, _⟩ => ⟨S256x256, .bf16⟩
  | .local _ .vmem, ⟨17, _⟩ => ⟨S256, .f32⟩
  | .local _ .vmem, ⟨18, _⟩ => ⟨S1x2048x256, .f32⟩
  | .local _ .vmem, ⟨19, _⟩ => ⟨S1x2048x256, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x2048x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  shapeCasts_S8x256x64x64_S8x256x4096 : S8x256x64x64.ShapeCasts S8x256x4096
  concatenates_S256x256_S256x256_S512x256_d0 : Shape.Concatenates [S256x256, S256x256] S512x256 0
  bitsLt_bf16_f32 : FTy.bits .bf16 < FTy.bits .f32
  concatenates_S256_S256_S512_d0 : Shape.Concatenates [S256, S256] S512 0
  shapeCasts_S512_S512x1 : S512.ShapeCasts S512x1
  inb_S1x256x256_S1x256x256_0_0_0 : ∀ a, (![0, 0, 0] : Fin 3 → Nat) a + S1x256x256.size a ≤ S1x256x256.size a
  h_S1x256x256 : 0 < S1x256x256.numel
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2048 : S512x1.Broadcasts S512x2048
  slices_S512x2048_o0_0_S256x2048 : S512x2048.Slices ![0, 0] S256x2048
  slices_S512x2048_o256_0_S256x2048 : S512x2048.Slices ![256, 0] S256x2048
  shapeCasts_S1x256x256_S1x256x256 : S1x256x256.ShapeCasts S1x256x256
  shapeCasts_S256x256_S1x256x256 : S256x256.ShapeCasts S1x256x256
  reduces_S256x2048_S2048 : S256x2048.Reduces [0] S2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  shapeCasts_S2048_S1x1x2048 : S2048.ShapeCasts S1x1x2048
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  shapeCasts_S1x256x256_S256x256 : S1x256x256.ShapeCasts S256x256
  reduces_S2048x256_S2048 : S2048x256.Reduces [1] S2048
  shapeCasts_S2048_S2048x1 : S2048.ShapeCasts S2048x1
  broadcasts_S2048x1_S2048x256 : S2048x1.Broadcasts S2048x256
  shapeCasts_S2048x256_S1x2048x256 : S2048x256.ShapeCasts S1x2048x256
  dot_S512x256_S256x2048_S512x2048_1_0_0_1_n_n_wf : DotDims.WF S512x256 S256x2048 S512x2048 [1] [0] [0] [1] [] []
  dot_S256x2048_S256x2048_S256x256_1_1_0_0_n_n_wf : DotDims.WF S256x2048 S256x2048 S256x256 [1] [1] [0] [0] [] []
  dot_S2048x256_S256x256_S2048x256_1_1_0_0_n_n_wf : DotDims.WF S2048x256 S256x256 S2048x256 [1] [1] [0] [0] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x256x4096.size a
  hwx0_0 : ∀ i : grid0.Coords, EltTy.bits .f32 = 32 ∨ (Rect.block (s := S8x256x4096) S1x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .f32 = 32 ∨ (Rect.block (s := S512x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S8x256x256.size a
  hwx0_3 : ∀ i : grid0.Coords, EltTy.bits .f32 = 32 ∨ (Rect.block (s := S8x256x256) S1x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S8x1x4096.size a
  hwx0_4 : ∀ i : grid0.Coords, EltTy.bits .f32 = 32 ∨ (Rect.block (s := S8x1x4096) S1x1x2048.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x256.size a ≤ S8x4096x256.size a
  hwx1_0 : ∀ i : grid1.Coords, EltTy.bits .f32 = 32 ∨ (Rect.block (s := S8x4096x256) S1x2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x256.size a ≤ S8x256x256.size a
  hwx1_3 : ∀ i : grid1.Coords, EltTy.bits .f32 = 32 ∨ (Rect.block (s := S8x256x256) S1x256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x2048.size a ≤ S8x1x4096.size a
  hwx1_4 : ∀ i : grid1.Coords, EltTy.bits .f32 = 32 ∨ (Rect.block (s := S8x1x4096) S1x1x2048.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S256.size a
  hwx1_6 : ∀ i : grid1.Coords, EltTy.bits .f32 = 32 ∨ (Rect.block (s := S256) S256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x2048x256.size a ≤ S8x4096x256.size a
  hwx1_7 : ∀ i : grid1.Coords, EltTy.bits .f32 = 32 ∨ (Rect.block (s := S8x4096x256) S1x2048x256.size (cc1_transform_7 i) (hinb1_7 i)).WholeWords (EltTy.packing .f32)

variable [Facts₀]

def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf
def dot_S256x2048_S256x2048_S256x256_1_1_0_0_n_n : DotDims S256x2048 S256x2048 S256x256 where
  lhsContracting := [1]
  rhsContracting := [1]
  lhsNonContracting := [0]
  rhsNonContracting := [0]
  lhsBatch := []
  rhsBatch := []
  wf := dot_S256x2048_S256x2048_S256x256_1_1_0_0_n_n_wf
def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_v0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S1x256x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S1x1x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1x2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7_0) S1x256x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7_1) S1x1x2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v8) S1x2048x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S8x4096x256 : Shape := ⟨3, ![8, 4096, 256]⟩
abbrev S8x256x64x64 : Shape := ⟨4, ![8, 256, 64, 64]⟩
abbrev S256x256 : Shape := ⟨2, ![256, 256]⟩
abbrev S256 : Shape := ⟨1, ![256]⟩
abbrev S8x256x4096 : Shape := ⟨3, ![8, 256, 4096]⟩
abbrev S1x1x256 : Shape := ⟨3, ![1, 1, 256]⟩
abbrev S_ : Shape := ⟨0, ![]⟩
abbrev S8x256x256 : Shape := ⟨3, ![8, 256, 256]⟩
abbrev S8x4096 : Shape := ⟨2, ![8, 4096]⟩
abbrev S8x4096x1 : Shape := ⟨3, ![8, 4096, 1]⟩

abbrev nBuf : Space → Nat
  | .hbm => 77
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x256x64x64, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S8x256x4096, .f32⟩
  | .hbm, ⟨11, _⟩ => ⟨S8x4096x256, .f32⟩
  | .hbm, ⟨12, _⟩ => ⟨S8x4096x256, .f32⟩
  | .hbm, ⟨13, _⟩ => ⟨S1x1x256, .f32⟩
  | .hbm, ⟨14, _⟩ => ⟨S8x4096x256, .f32⟩
  | .hbm, ⟨15, _⟩ => ⟨S8x4096x256, .f32⟩
  | .hbm, ⟨16, _⟩ => ⟨S_, .f32⟩
  | .hbm, ⟨17, _⟩ => ⟨S8x4096x256, .f32⟩
  | .hbm, ⟨18, _⟩ => ⟨S8x4096x256, .i1⟩
  | .hbm, ⟨19, _⟩ => ⟨S_, .f32⟩
  | .hbm, ⟨20, _⟩ => ⟨S8x4096x256, .f32⟩
  | .hbm, ⟨21, _⟩ => ⟨S8x4096x256, .i1⟩
  | .hbm, ⟨22, _⟩ => ⟨S_, .f32⟩
  | .hbm, ⟨23, _⟩ => ⟨S_, .f32⟩
  | .hbm, ⟨24, _⟩ => ⟨S8x4096x256, .f32⟩
  | .hbm, ⟨25, _⟩ => ⟨S8x4096x256, .f32⟩
  | .hbm, ⟨26, _⟩ => ⟨S8x4096x256, .f32⟩
  | .hbm, ⟨27, _⟩ => ⟨S_, .f32⟩
  | .hbm, ⟨28, _⟩ => ⟨S8x4096x256, .f32⟩
  | .hbm, ⟨29, _⟩ => ⟨S8x4096x256, .f32⟩
  | .hbm, ⟨30, _⟩ => ⟨S8x4096x256, .f32⟩
  | .hbm, ⟨31, _⟩ => ⟨S_, .f32⟩
  | .hbm, ⟨32, _⟩ => ⟨S8x4096x256, .f32⟩
  | .hbm, ⟨33, _⟩ => ⟨S8x4096x256, .f32⟩
  | .hbm, ⟨34, _⟩ => ⟨S8x4096x256, .f32⟩
  | .hbm, ⟨35, _⟩ => ⟨S1x1x256, .f32⟩
  | .hbm, ⟨36, _⟩ => ⟨S8x4096x256, .f32⟩
  | .hbm, ⟨37, _⟩ => ⟨S8x4096x256, .f32⟩
  | .hbm, ⟨38, _⟩ => ⟨S_, .f32⟩
  | .hbm, ⟨39, _⟩ => ⟨S8x4096x256, .f32⟩
  | .hbm, ⟨40, _⟩ => ⟨S8x4096x256, .i1⟩
  | .hbm, ⟨41, _⟩ => ⟨S_, .f32⟩
  | .hbm, ⟨42, _⟩ => ⟨S8x4096x256, .f32⟩
  | .hbm, ⟨43, _⟩ => ⟨S8x4096x256, .i1⟩
  | .hbm, ⟨44, _⟩ => ⟨S_, .f32⟩
  | .hbm, ⟨45, _⟩ => ⟨S_, .f32⟩
  | .hbm, ⟨46, _⟩ => ⟨S8x4096x256, .f32⟩
  | .hbm, ⟨47, _⟩ => ⟨S8x4096x256, .f32⟩
  | .hbm, ⟨48, _⟩ => ⟨S8x4096x256, .f32⟩
  | .hbm, ⟨49, _⟩ => ⟨S_, .f32⟩
  | .hbm, ⟨50, _⟩ => ⟨S8x4096x256, .f32⟩
  | .hbm, ⟨51, _⟩ => ⟨S8x4096x256, .f32⟩
  | .hbm, ⟨52, _⟩ => ⟨S8x4096x256, .f32⟩
  | .hbm, ⟨53, _⟩ => ⟨S_, .f32⟩
  | .hbm, ⟨54, _⟩ => ⟨S8x4096x256, .f32⟩
  | .hbm, ⟨55, _⟩ => ⟨S8x4096x256, .f32⟩
  | .hbm, ⟨56, _⟩ => ⟨S8x4096x256, .f32⟩
  | .hbm, ⟨57, _⟩ => ⟨S1x1x256, .f32⟩
  | .hbm, ⟨58, _⟩ => ⟨S8x4096x256, .f32⟩
  | .hbm, ⟨59, _⟩ => ⟨S8x4096x256, .f32⟩
  | .hbm, ⟨60, _⟩ => ⟨S8x256x256, .f32⟩
  | .hbm, ⟨61, _⟩ => ⟨S_, .f32⟩
  | .hbm, ⟨62, _⟩ => ⟨S8x4096, .f32⟩
  | .hbm, ⟨63, _⟩ => ⟨S8x4096x256, .f32⟩
  | .hbm, ⟨64, _⟩ => ⟨S_, .f32⟩
  | .hbm, ⟨65, _⟩ => ⟨S8x4096, .f32⟩
  | .hbm, ⟨66, _⟩ => ⟨S8x4096, .f32⟩
  | .hbm, ⟨67, _⟩ => ⟨S8x4096x1, .f32⟩
  | .hbm, ⟨68, _⟩ => ⟨S_, .f32⟩
  | .hbm, ⟨69, _⟩ => ⟨S8x4096x1, .f32⟩
  | .hbm, ⟨70, _⟩ => ⟨S8x4096x1, .f32⟩
  | .hbm, ⟨71, _⟩ => ⟨S8x4096x256, .f32⟩
  | .hbm, ⟨72, _⟩ => ⟨S8x4096x256, .f32⟩
  | .hbm, ⟨73, _⟩ => ⟨S8x4096x256, .f32⟩
  | .hbm, ⟨74, _⟩ => ⟨S1x1x256, .f32⟩
  | .hbm, ⟨75, _⟩ => ⟨S8x4096x256, .f32⟩
  | .hbm, ⟨76, _⟩ => ⟨S8x4096x256, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_cst_0 : Ref sig .tc := ⟨.hbm, 19, rfl⟩
abbrev main_call0_v2 : Ref sig .tc := ⟨.hbm, 20, rfl⟩
abbrev main_call0_v3 : Ref sig .tc := ⟨.hbm, 21, rfl⟩
abbrev main_call0_cst_1 : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_v4 : Ref sig .tc := ⟨.hbm, 25, rfl⟩
abbrev main_call0_v5 : Ref sig .tc := ⟨.hbm, 26, rfl⟩
abbrev main_call0_cst_2 : Ref sig .tc := ⟨.hbm, 27, rfl⟩
abbrev main_call0_v6 : Ref sig .tc := ⟨.hbm, 28, rfl⟩
abbrev main_call0_v7 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_call1_cst : Ref sig .tc := ⟨.hbm, 38, rfl⟩
abbrev main_call1_v0 : Ref sig .tc := ⟨.hbm, 39, rfl⟩
abbrev main_call1_v1 : Ref sig .tc := ⟨.hbm, 40, rfl⟩
abbrev main_call1_cst_0 : Ref sig .tc := ⟨.hbm, 41, rfl⟩
abbrev main_call1_v2 : Ref sig .tc := ⟨.hbm, 42, rfl⟩
abbrev main_call1_v3 : Ref sig .tc := ⟨.hbm, 43, rfl⟩
abbrev main_call1_cst_1 : Ref sig .tc := ⟨.hbm, 44, rfl⟩
abbrev main_call1_call0_v0 : Ref sig .tc := ⟨.hbm, 45, rfl⟩
abbrev main_call1_call0_v1 : Ref sig .tc := ⟨.hbm, 46, rfl⟩
abbrev main_call1_v4 : Ref sig .tc := ⟨.hbm, 47, rfl⟩
abbrev main_call1_v5 : Ref sig .tc := ⟨.hbm, 48, rfl⟩
abbrev main_call1_cst_2 : Ref sig .tc := ⟨.hbm, 49, rfl⟩
abbrev main_call1_v6 : Ref sig .tc := ⟨.hbm, 50, rfl⟩
abbrev main_call1_v7 : Ref sig .tc := ⟨.hbm, 51, rfl⟩
abbrev main_v13 : Ref sig .tc := ⟨.hbm, 52, rfl⟩
abbrev main_cst_0 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_cst_1 : Ref sig .tc := ⟨.hbm, 61, rfl⟩
abbrev main_v21 : Ref sig .tc := ⟨.hbm, 62, rfl⟩
abbrev main_v22 : Ref sig .tc := ⟨.hbm, 63, rfl⟩
abbrev main_cst_2 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_cst_3 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩

abbrev nD : Nat := 1
abbrev τ : Topo := Topo.v7x

variable {F : FTy → Type} [FloatOps F]

class Facts₀ : Prop where
  shapeCasts_S8x256x64x64_S8x256x4096 : S8x256x64x64.ShapeCasts S8x256x4096
  transposes_S8x256x4096_S8x4096x256_0_2_1 : S8x256x4096.Transposes [0, 2, 1] S8x4096x256
  bcast_S256_S1x1x256_2 : S256.BroadcastsInDim S1x1x256 (![2] : Fin 1 → Fin S1x1x256.rank)
  bcast_S1x1x256_S8x4096x256_0_1_2 : S1x1x256.BroadcastsInDim S8x4096x256 (![0, 1, 2] : Fin 3 → Fin S8x4096x256.rank)
  bcast_S_S8x4096x256 : S_.BroadcastsInDim S8x4096x256 (![] : Fin 0 → Fin S8x4096x256.rank)
  reducesTo_S8x4096x256_S8x4096_d2 : S8x4096x256.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x256_0_1_2 : S8x4096x1.BroadcastsInDim S8x4096x256 (![0, 1, 2] : Fin 3 → Fin S8x4096x256.rank)
  dot_S8x4096x256_S256x256_S8x4096x256_2_1_01_0_n_n_wf : DotDims.WF S8x4096x256 S256x256 S8x4096x256 [2] [1] [0, 1] [0] [] []
  dot_S8x4096x256_S8x4096x256_S8x256x256_1_1_2_2_0_0_wf : DotDims.WF S8x4096x256 S8x4096x256 S8x256x256 [1] [1] [2] [2] [0] [0]
  dot_S8x4096x256_S8x256x256_S8x4096x256_2_1_1_2_0_0_wf : DotDims.WF S8x4096x256 S8x256x256 S8x4096x256 [2] [1] [1] [2] [0] [0]

variable [Facts₀]

def dot_S8x4096x256_S256x256_S8x4096x256_2_1_01_0_n_n : DotDims S8x4096x256 S256x256 S8x4096x256 where
  lhsContracting := [2]
  rhsContracting := [1]
  lhsNonContracting := [0, 1]
  rhsNonContracting := [0]
  lhsBatch := []
  rhsBatch := []
  wf := dot_S8x4096x256_S256x256_S8x4096x256_2_1_01_0_n_n_wf
def dot_S8x4096x256_S8x4096x256_S8x256x256_1_1_2_2_0_0 : DotDims S8x4096x256 S8x4096x256 S8x256x256 where
  lhsContracting := [1]
  rhsContracting := [1]
  lhsNonContracting := [2]
  rhsNonContracting := [2]
  lhsBatch := [0]
  rhsBatch := [0]
  wf := dot_S8x4096x256_S8x4096x256_S8x256x256_1_1_2_2_0_0_wf
def dot_S8x4096x256_S8x256x256_S8x4096x256_2_1_1_2_0_0 : DotDims S8x4096x256 S8x256x256 S8x4096x256 where
  lhsContracting := [2]
  rhsContracting := [1]
  lhsNonContracting := [1]
  rhsNonContracting := [2]
  lhsBatch := [0]
  rhsBatch := [0]
  wf := dot_S8x4096x256_S8x256x256_S8x4096x256_2_1_1_2_0_0_wf

class Facts : Prop extends Facts₀ where

variable [Facts]
-- ==== Proof.KRun.lean ====
/-
  The idealized kernel program's run with its result array NAMED. @main is a stretch of host operations followed by two
  kernel regions; the launch over those three segments ends with every unscoped buffer at the last boundary's contents
  `Gen.W3` (the fold: the host operations applied to the launch memory, then each region's arrays at what its write-backs
  leave). Reading the final state at the result buffer and at the ten arguments gives: the result is `Gen.W3` at the
  result buffer, the arguments are as launched.
-/
import proofs.«123487_j59785944761114_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting; the result buffer ends at the last boundary's
    contents and the ten argument arrays end as launched. -/
theorem run : θ_run defs (onTc (τ := τ) (main (F := F))) ⟨m, fun _ => 0, ρ⟩ (fun r => ∀ c : Dev nD,
      r.2.mem ((c.tc : Thread nD τ).loc main_v8) = W3 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v8 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c)⟩)

end Cert.KernelIdeal.KRun

end
-- ==== Proof.Spec.lean ====
/-
  Linear attention with the feature map  φ(x) = elu(x) + 1,  as ONE function of the ten argument arrays, entry by entry.

  With  X[b,d,m]  the key/value image  kv[b,d,h,w]  read at the flat position  m = 64·h + w,  and
  lin x W β e = (Σ_d x_d · W[e,d]) + β[e]  a row of a linear layer:

    K[b,m,c]   = φ (lin X[b,·,m] Wk bk c)            V[b,m,e] = lin X[b,·,m] Wv bv e
    KV[b,c,e]  = Σ_m K[b,m,c] · V[b,m,e]             Z[b,m]   = Σ_c K[b,m,c]
    Q[b,n,e]   = φ (lin q[b,n,·] Wq bq e)
    num[b,n,d] = Σ_c Q[b,n,c] · KV[b,c,d]            den[b,n] = (Σ_c Q[b,n,c]) · Z[b,n]
    o[b,n,d]   = num[b,n,d] / (den[b,n] + ε)         result[b,n,e] = lin o[b,n,·] Wo bo e

  Everything is over the extended reals; ε is the f32 word 0x358637BD, never evaluated (both programs spell the same word).
  The two scalar lemmas at the end say that the two spellings of φ met in the programs — exp(min(x,0)) − 1 under a
  comparison with zero, and 1·(exp(x') − 1) with x' = (0 if x > 0 else x) under the same comparison — are this φ.
-/
import Idealize.ShloMosaic.PureOps.Ideal
import Idealize.ShloMosaic.PureOps.Ideal.Laws
import Idealize.ShloMosaic.Lib.ValueIdx

noncomputable section

namespace Cert.LinAttn

open Idealize.ShloMosaic Idealize.ShloMosaic.ValueIdx

/-- Array types over literal shapes. -/
abbrev Arr1 (a : Nat) := (⟨1, ![a]⟩ : Shape).Idx → EReal
abbrev Arr2 (a b : Nat) := (⟨2, ![a, b]⟩ : Shape).Idx → EReal
abbrev Arr3 (a b c : Nat) := (⟨3, ![a, b, c]⟩ : Shape).Idx → EReal
abbrev Arr4 (a b c d : Nat) := (⟨4, ![a, b, c, d]⟩ : Shape).Idx → EReal

/-- The normaliser's epsilon: the f32 word both programs spell. -/
abbrev eps : EReal := Ideal.ofBits .f32 0x358637BD#32

/-- The feature map φ(x) = elu(x) + 1: x + 1 above zero, exp x below (as exp(min x 0) − 1 + 1). -/
def phi (x : EReal) : EReal := (if 0 < x then x else Ideal.exp (min x 0) - 1) + 1

/-- One output feature of a linear layer: (Σ_d x_d · W[e,d]) + β[e]. -/
def lin (x : Fin 256 → EReal) (W : Arr2 256 256) (β : Arr1 256) (e : Fin 256) : EReal :=
  (∑ d : Fin 256, x d * W (ix2 e d)) + β (ix1 e)

/-- The key/value image at batch b, channel d, flat position m = 64·h + w. -/
def X (kv : Arr4 8 256 64 64) (b : Fin 8) (d : Fin 256) (m : Fin 4096) : EReal :=
  kv (ix4 b d ⟨m.val / 64, by omega⟩ ⟨m.val % 64, by omega⟩)

def K (kv : Arr4 8 256 64 64) (Wk : Arr2 256 256) (bk : Arr1 256) (b : Fin 8) (m : Fin 4096) (c : Fin 256) : EReal :=
  phi (lin (fun d => X kv b d m) Wk bk c)

def V (kv : Arr4 8 256 64 64) (Wv : Arr2 256 256) (bv : Arr1 256) (b : Fin 8) (m : Fin 4096) (e : Fin 256) : EReal :=
  lin (fun d => X kv b d m) Wv bv e

def KV (kv : Arr4 8 256 64 64) (Wk : Arr2 256 256) (bk : Arr1 256) (Wv : Arr2 256 256) (bv : Arr1 256)
    (b : Fin 8) (c e : Fin 256) : EReal :=
  ∑ m : Fin 4096, K kv Wk bk b m c * V kv Wv bv b m e

def Z (kv : Arr4 8 256 64 64) (Wk : Arr2 256 256) (bk : Arr1 256) (b : Fin 8) (m : Fin 4096) : EReal :=
  ∑ c : Fin 256, K kv Wk bk b m c

def Q (q : Arr3 8 4096 256) (Wq : Arr2 256 256) (bq : Arr1 256) (b : Fin 8) (n : Fin 4096) (e : Fin 256) : EReal :=
  phi (lin (fun d => q (ix3 b n d)) Wq bq e)

/-- The normalised attention row o[b,n,d] from the three intermediates Q, KV, Z given as functions. -/
def attn (Qf : Fin 8 → Fin 4096 → Fin 256 → EReal) (KVf : Fin 8 → Fin 256 → Fin 256 → EReal) (Zf : Fin 8 → Fin 4096 → EReal)
    (b : Fin 8) (n : Fin 4096) (d : Fin 256) : EReal :=
  Ideal.div (∑ c : Fin 256, Qf b n c * KVf b c d) ((∑ c : Fin 256, Qf b n c) * Zf b n + eps)

/-- The whole result at (b, n, e). -/
def out (q : Arr3 8 4096 256) (kv : Arr4 8 256 64 64) (Wq : Arr2 256 256) (bq : Arr1 256) (Wk : Arr2 256 256) (bk : Arr1 256)
    (Wv : Arr2 256 256) (bv : Arr1 256) (Wo : Arr2 256 256) (bo : Arr1 256) (b : Fin 8) (n : Fin 4096) (e : Fin 256) : EReal :=
  lin (fun d => attn (Q q Wq bq) (KV kv Wk bk Wv bv) (Z kv Wk bk) b n d) Wo bo e

/-- The result array. -/
def G (q : Arr3 8 4096 256) (kv : Arr4 8 256 64 64) (Wq : Arr2 256 256) (bq : Arr1 256) (Wk : Arr2 256 256) (bk : Arr1 256)
    (Wv : Arr2 256 256) (bv : Arr1 256) (Wo : Arr2 256 256) (bo : Arr1 256) : Arr3 8 4096 256 :=
  fun i => out q kv Wq bq Wk bk Wv bv Wo bo (i 0) (i 1) (i 2)

/-! ## The words 0.0 and 1.0, and the two spellings of φ -/

/-- The f32 word of 1.0 denotes 1. -/
theorem ofBits_one : Ideal.ofBits .f32 0x3F800000#32 = 1 := by
  simp [Ideal.ofBits, Ideal.ieee, -EReal.coe_mul]; norm_num

/-- The comparison "x > 0" against the zero word is the word 1 exactly when 0 < x. -/
theorem cmp_gt_zero (x : EReal) : Ideal.cmp .ogt x (Ideal.ofBits .f32 0x00000000#32) = if 0 < x then 1#1 else 0#1 := by
  rw [Ideal.ofBits_zero_f32]; unfold Ideal.cmp; by_cases h : (0 : EReal) < x <;> simp [h]

/-- The kernel's spelling: select (x > 0) x (exp (min x 0) − 1.0) + 1.0. -/
theorem phi_of_min (x : EReal) :
    Scalar.select (Ideal.cmp .ogt x (Ideal.ofBits .f32 0x00000000#32)) x
        (Ideal.exp (min x (Ideal.ofBits .f32 0x00000000#32)) - Ideal.ofBits .f32 0x3F800000#32)
      + Ideal.ofBits .f32 0x3F800000#32 = phi x := by
  rw [cmp_gt_zero, ofBits_one, Ideal.ofBits_zero_f32]; unfold phi
  by_cases h : (0 : EReal) < x
  · simp only [h, if_true]; rw [ValueIdx.select_one]
  · simp only [h, if_false]; rw [ValueIdx.select_zero]

/-- The reference's spelling: select (x > 0) x (1.0 · (exp (select (x > 0) 0.0 x) − 1)) + 1.0. -/
theorem phi_of_where (x : EReal) :
    Scalar.select (Ideal.cmp .ogt x (Ideal.ofBits .f32 0x00000000#32)) x
        (Ideal.ofBits .f32 0x3F800000#32 *
          (Ideal.exp (Scalar.select (Ideal.cmp .ogt x (Ideal.ofBits .f32 0x00000000#32)) (Ideal.ofBits .f32 0x00000000#32) x) - 1))
      + Ideal.ofBits .f32 0x3F800000#32 = phi x := by
  rw [cmp_gt_zero, ofBits_one, Ideal.ofBits_zero_f32]; unfold phi
  by_cases h : (0 : EReal) < x
  · simp only [h, if_true]; rw [ValueIdx.select_one]
  · simp only [h, if_false]; rw [ValueIdx.select_zero, ValueIdx.select_zero, one_mul, min_eq_left (not_lt.mp h)]

end Cert.LinAttn

end
-- ==== Proof.LibKeepdims.lean ====
/-
  A row reduction kept as a column (`keepdims`), read by coordinates.

  A lane sum of an `[a, b]` array is, at row `p`, the sum over the lane coordinate `k` of the entry `(p, k)`.
  The sum is then re-laid: cast from `[a]` to the column `[a, 1]` (entry `(i, 0)` is entry `i`), and the column
  broadcast along its unit axis to `[a, b]` (entry `(p, c)` is the column's entry `(p, 0)`). Each lemma states one of
  these three readings at an index written by its coordinates, for any extents.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to the column `[a, 1]` reads, at `(i, u)`, the operand at `i`: both indices have row-major
    position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along its unit axis to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` array from the zero pattern, read at row `p`, is the sum over the lane coordinate
    `k` of the entry `(p, k)`: on the extended reals the sum has no order and the zero it starts from adds nothing. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  refine Finset.sum_congr rfl fun k _ => congrArg src ?_
  funext d
  apply Fin.ext
  match d with
  | ⟨0, _⟩ => rfl
  | ⟨1, _⟩ => rfl

end Cert.Keepdims
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.LibTransposedRhsDot.lean ====
/-
  The product of an M×K matrix with the transpose of an N×K matrix, read at one entry.

  Both operands are contracted along their last axis, so entry (p, q) of the result is the sum over
  k of left (p, k) times right (q, k). Stated for the dimension record `DotDims.transposedRhs M K N`
  at the exact instance, for the accelerator's product into the zero accumulator and for the host's
  product; general in the three extents. A printed record with contracting axes [1] and [1], free
  axes [0] and [0] and no batch axes is this record (the two differ only in a proof field).
-/
import Idealize.ShloMosaic.Lib.ValueIdx
import Idealize.ShloMosaic.PureOps.Ideal.Laws

noncomputable section

open scoped BigOperators

namespace Cert.LibTransposedRhsDot

open Idealize.ShloMosaic Idealize.ShloMosaic.ValueIdx

variable {M K N : ℕ}

/-- The left operand's index for result entry (p, q) and contraction position k is (p, k). -/
theorem lhsIdx_eq (p : Fin M) (q : Fin N) (k : Fin K) :
    (DotDims.transposedRhs M K N).lhsIdx (ix2 p q) ((contrEquiv1 (DotDims.transposedRhs M K N) K rfl rfl).symm k)
      = ix2 p k := by
  have hk := contrEquiv1_symm_val (DotDims.transposedRhs M K N) K rfl rfl k
  funext a; apply Fin.ext
  match a with
  | ⟨0, _⟩ =>
    show ((DotDims.transposedRhs M K N).lhsIdx (ix2 p q) _ 0).val = p.val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ => exact ((DotDims.transposedRhs M K N).lhsIdx_val_of_single rfl _ _).trans hk

/-- The right operand's index for result entry (p, q) and contraction position k is (q, k). -/
theorem rhsIdx_eq (p : Fin M) (q : Fin N) (k : Fin K) :
    (DotDims.transposedRhs M K N).rhsIdx (ix2 p q) ((contrEquiv1 (DotDims.transposedRhs M K N) K rfl rfl).symm k)
      = ix2 q k := by
  have hk := contrEquiv1_symm_val (DotDims.transposedRhs M K N) K rfl rfl k
  funext a; apply Fin.ext
  match a with
  | ⟨0, _⟩ =>
    show ((DotDims.transposedRhs M K N).rhsIdx (ix2 p q) _ 0).val = q.val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ => exact ((DotDims.transposedRhs M K N).rhsIdx_val_of_single rfl _ _).trans hk

/-- The accelerator's product into the zero accumulator: entry (p, q) is the sum over k of
    left (p, k) · right (q, k). -/
theorem matmul_zero_apply {φ₁ φ₂ : FTy} (prec : Option ContractPrecision)
    (l : FVec Ideal ⟨2, ![M, K]⟩ φ₁) (r : FVec Ideal ⟨2, ![N, K]⟩ φ₂) (p : Fin M) (q : Fin N) :
    matmul (DotDims.transposedRhs M K N) prec l r (constant (F := Ideal) ⟨2, ![M, N]⟩ .f32 0x00000000#32) (ix2 p q)
      = ∑ k : Fin K, l (ix2 p k) * r (ix2 q k) := by
  refine (Ideal.matmul_constant_zero_apply (DotDims.transposedRhs M K N) prec l r (ix2 p q)).trans ?_
  rw [← Equiv.sum_comp (contrEquiv1 (DotDims.transposedRhs M K N) K rfl rfl).symm]
  refine Finset.sum_congr rfl fun k _ => ?_
  rw [lhsIdx_eq, rhsIdx_eq]

/-- The host's product of the same shape: the same sum. -/
theorem dotGeneral_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) := by
  show FloatOps.dotGeneral _ prec _ l r (ix2 p q) = _
  rw [Ideal.dotGeneral_apply, ← Equiv.sum_comp (contrEquiv1 (DotDims.transposedRhs M K N) K rfl rfl).symm]
  refine Finset.sum_congr rfl fun k _ => ?_
  rw [lhsIdx_eq, rhsIdx_eq]

end Cert.LibTransposedRhsDot

end
-- ==== Proof.LibSublaneSum.lean ====
/-
  A column sum of a matrix, read by coordinates.

  A float sum of an `[a, b]` array over its first axis, started from the zero pattern, is at column `c` the sum over the
  row coordinate `k` of the entry `(k, c)`: on the extended reals a sum has no order, and the zero it starts from adds
  nothing. Stated for any extents; the companion of the lane sum (the sum over the second axis).
-/
import Idealize.ShloMosaic.Lib.Pipeline.Value
import Idealize.ShloMosaic.Lib.ValueIdx
import Idealize.ShloMosaic.PureOps.Ideal.Laws

namespace Cert.SublaneSum

open Idealize.ShloMosaic Idealize.ShloMosaic.ValueIdx

/-- A float sum of an `[a, b]` array over axis 0 from the zero pattern, read at column `c`, is the sum over the row
    coordinate `k` of the entry `(k, c)`. -/
theorem sublaneSum_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src _ h hφ hacc (ix1 c)).trans ?_
  refine Finset.sum_congr rfl fun k _ => congrArg src ?_
  funext d
  apply Fin.ext
  match d with
  | ⟨0, _⟩ => rfl
  | ⟨1, _⟩ => rfl

end Cert.SublaneSum
-- ==== Proof.LibRank3Broadcast.lean ====
/-
  Rank-3 broadcasts along unit axes, and the shape casts that insert those unit axes, read by coordinates.

  A broadcast to a larger shape repeats the operand along each of its axes of extent one: the result at (p, q, k)
  is the operand at the same coordinates with 0 on the repeated axes. A reshape keeps the row-major order, and an
  axis of extent one adds nothing to an entry's position, so inserting unit axes keeps the other coordinates.
  General in the extents.
-/
import Idealize.ShloMosaic.Lib.Pipeline.Value
import Idealize.ShloMosaic.Lib.ValueIdx

namespace Cert.LibRank3Broadcast

open Idealize.ShloMosaic Idealize.ShloMosaic.ValueIdx

variable {α : Type}

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(p, q, k)`, the operand at `(0, q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- A `[1, 1, c]` array broadcast to `[a, b, c]` reads, at `(p, q, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- An `[a, c]` array cast to `[a, 1, c]` reads, at `(p, u, k)`, the operand at `(p, k)`: both sit at row-major
    position `p · c + k`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- A `[c]` array cast to `[1, 1, c]` reads, at `(u, v, k)`, the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * c + k.val
    rw [hu, hv]
    simp)

end Cert.LibRank3Broadcast
-- ==== Proof.KPay0.lean ====
/-
  The arithmetic of the first kernel's body, read entry by entry over the extended reals.

  One grid point sees a block x[0, d, m] of the flattened key/value image (256 channels d, 2048 token positions m), the
  stacked projection matrix W[r, d] (rows 0–255 the key projection, rows 256–511 the value projection) and the stacked
  bias β[r, 0]. The body forms

    pre[r, m] = (Σ_d W[r, d] · x[0, d, m]) + β[r, 0]                      (one matrix product into a zero accumulator)
    k[c, m]   = φ(pre[c, m])            v[e, m] = pre[256 + e, m]         (the two halves of pre)
    block'[0, c, e] = block[0, c, e] + Σ_m k[c, m] · v[e, m]              (the running key–value block)
    z[0, 0, m] = Σ_c k[c, m]                                              (a sum down the channel axis)

  Changes of float format are the identity here, and a product into the zero accumulator is the plain sum of products.
-/
import proofs.«123487_j59785944761114_2_alg».proof.Proof.Gen.KernelIdeal.Skeleton
import proofs.«123487_j59785944761114_2_alg».proof.Proof.Spec
import proofs.«123487_j59785944761114_2_alg».proof.Proof.LibKeepdims
import proofs.«123487_j59785944761114_2_alg».proof.Proof.LibPlainDot
import proofs.«123487_j59785944761114_2_alg».proof.Proof.LibTransposedRhsDot
import proofs.«123487_j59785944761114_2_alg».proof.Proof.LibSublaneSum
import proofs.«123487_j59785944761114_2_alg».proof.Proof.LibRank3Broadcast
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.KPay0

open Cert.KernelIdeal Cert.KernelIdeal.Gen
open Idealize.ShloMosaic Idealize.ShloMosaic.ValueIdx
open Cert.LinAttn (phi)

/-- pre[r, m] = (Σ_d W[r, d] · x[0, d, m]) + β[r, 0]. -/
def pre (x0 : FVec Ideal S1x256x2048 .f32) (x1 : FVec Ideal S512x256 .bf16) (x2 : FVec Ideal S512x1 .f32)
    (r : Fin 512) (mm : Fin 2048) : EReal :=
  (∑ d : Fin 256, x1 (ix2 r d) * x0 (ix3 (0 : Fin 1) d mm)) + x2 (ix2 r (0 : Fin 1))

theorem pay3_apply (x0 : FVec Ideal S1x256x2048 .f32) (x1 : FVec Ideal S512x256 .bf16) (x2 : FVec Ideal S512x1 .f32)
    (r : Fin 512) (mm : Fin 2048) : k0_pay3 (F := Ideal) x0 x1 x2 (ix2 r mm) = pre x0 x1 x2 r mm := by
  unfold k0_pay3 pre
  refine (addf_apply _ _ _).trans (congrArg₂ (· + ·) ?_ ?_)
  · refine (Cert.LibPlainDot.matmul_zero_apply 512 256 2048 none _ _ (ix2 r mm)).trans ?_
    refine Finset.sum_congr rfl fun d _ => congrArg₂ (· * ·) ?_ ?_
    · exact congrFun (shapeCast_self x1 _) _
    · exact shapeCast_1ab_ab_apply x0 _ d mm
  · refine (Cert.Keepdims.broadcastTo_a1_ab_apply _ _ r mm).trans ?_
    exact congrFun (shapeCast_self x2 _) _

/-- k[c, m] = φ(pre[c, m]): the upper half of pre through the feature map. -/
theorem pay4_apply (x0 : FVec Ideal S1x256x2048 .f32) (x1 : FVec Ideal S512x256 .bf16) (x2 : FVec Ideal S512x1 .f32)
    (c : Fin 256) (mm : Fin 2048) :
    k0_pay4 (F := Ideal) x0 x1 x2 (ix2 c mm) = phi (pre x0 x1 x2 ⟨c.val, by omega⟩ mm) := by
  have hs : extractStridedSlice S256x2048 ![0, 0] (k0_pay3 (F := Ideal) x0 x1 x2) slices_S512x2048_o0_0_S256x2048 (ix2 c mm)
      = pre x0 x1 x2 ⟨c.val, by omega⟩ mm :=
    (slice2_axis0_apply 0 (k0_pay3 (F := Ideal) x0 x1 x2) _ c mm ⟨c.val, by omega⟩ (by simp)).trans (pay3_apply x0 x1 x2 _ mm)
  have hsb : ∀ w : BitVec 32, Scalar.ofBits (F := Ideal) .f32 w = Ideal.ofBits .f32 w := fun _ => rfl
  unfold k0_pay4
  simp only [addf_apply, select_apply, cmpf_apply, subf_apply, minimumf_apply, broadcast_apply,
    Ideal.cmpf_def, Ideal.minimumf_def, Ideal.subf_def, Ideal.addf_def, Ideal.exp_def, exp, hsb, hs]
  exact Cert.LinAttn.phi_of_min _

/-- v[e, m] = pre[256 + e, m]: the lower half of pre. -/
theorem vslice_apply (x0 : FVec Ideal S1x256x2048 .f32) (x1 : FVec Ideal S512x256 .bf16) (x2 : FVec Ideal S512x1 .f32)
    (e : Fin 256) (mm : Fin 2048) :
    extractStridedSlice S256x2048 ![256, 0] (k0_pay3 (F := Ideal) x0 x1 x2) slices_S512x2048_o256_0_S256x2048 (ix2 e mm)
      = pre x0 x1 x2 ⟨256 + e.val, by omega⟩ mm :=
  (slice2_axis0_apply 256 (k0_pay3 (F := Ideal) x0 x1 x2) _ e mm ⟨256 + e.val, by omega⟩ rfl).trans (pay3_apply x0 x1 x2 _ mm)

/-- The running key–value block after this point: block[0, c, e] + Σ_m k[c, m] · v[e, m]. -/
theorem pay5_apply (x0 : FVec Ideal S1x256x2048 .f32) (x1 : FVec Ideal S512x256 .bf16) (x2 : FVec Ideal S512x1 .f32)
    (acc : FVec Ideal S1x256x256 .f32) (u : Fin 1) (c e : Fin 256) :
    k0_pay5 (F := Ideal) x0 x1 x2 acc (ix3 u c e)
      = acc (ix3 u c e) + ∑ mm : Fin 2048, phi (pre x0 x1 x2 ⟨c.val, by omega⟩ mm) * pre x0 x1 x2 ⟨256 + e.val, by omega⟩ mm := by
  unfold k0_pay5
  refine (addf_apply _ _ _).trans (congrArg₂ (· + ·) ?_ ?_)
  · exact congrFun (shapeCast_self acc _) _
  · refine (shapeCast_ab_1ab_apply _ _ u c e).trans ?_
    refine (Cert.LibTransposedRhsDot.matmul_zero_apply none _ _ c e).trans ?_
    refine Finset.sum_congr rfl fun mm _ => congrArg₂ (· * ·) ?_ ?_
    · exact pay4_apply x0 x1 x2 c mm
    · exact vslice_apply x0 x1 x2 e mm

/-- z[m] = Σ_c k[c, m]. -/
theorem pay6_apply (x0 : FVec Ideal S1x256x2048 .f32) (x1 : FVec Ideal S512x256 .bf16) (x2 : FVec Ideal S512x1 .f32)
    (mm : Fin 2048) :
    k0_pay6 (F := Ideal) x0 x1 x2 (ix1 mm) = ∑ c : Fin 256, phi (pre x0 x1 x2 ⟨c.val, by omega⟩ mm) := by
  unfold k0_pay6
  refine (Cert.SublaneSum.sublaneSum_apply (k0_pay4 (F := Ideal) x0 x1 x2) _ _ _ mm).trans ?_
  exact Finset.sum_congr rfl fun c _ => pay4_apply x0 x1 x2 c mm

/-- The Z row stored as a [1, 1, 2048] block reads the row at its last coordinate. -/
theorem pay1_apply (v : FVec Ideal S2048 .f32) (u w : Fin 1) (mm : Fin 2048) :
    k0_pay1 (F := Ideal) v (ix3 u w mm) = v (ix1 mm) := by
  unfold k0_pay1
  exact Cert.LibRank3Broadcast.shapeCast_c_11c_apply v _ u w mm

/-- The block the first tile of a batch starts from: all zeros. -/
theorem pay2_apply (i : S1x256x256.Idx) : k0_pay2 (F := Ideal) i = 0 := by
  unfold k0_pay2
  exact Ideal.ofBits_zero_f32

end Cert.KernelIdeal.KPay0

end
-- ==== Proof.KBody0.lean ====
/-
  What each case of the first kernel's body leaves in its two output buffers, for any float instance.

  At an odd grid point the key–value buffer ends at the running block plus this tile's products; at an even point it is
  first set to the zero block, so it ends at the zero block plus this tile's products. At every point the normaliser
  buffer ends at this tile's channel sums. Each is the one covering store's value, read back.
-/
import proofs.«123487_j59785944761114_2_alg».proof.Proof.Gen.KernelIdeal.Frame
import Idealize.ShloMosaic.Lib.Pipeline.Value
import Idealize.ShloMosaic.Lib.Tactic

set_option maxRecDepth 16384

noncomputable section

namespace Cert.KernelIdeal.KBody0

open Cert.KernelIdeal Cert.KernelIdeal.Gen
open Idealize.ShloMosaic Idealize.ShloMosaic.TcCoe Idealize.ShloMosaic.Tactic Idealize.SL.Sem

theorem hz3 : (![0, 0, 0] : Fin 3 → Nat) = fun _ => 0 := funext fun a => by fin_cases a <;> rfl
theorem hz2 : (![0, 0] : Fin 2 → Nat) = fun _ => 0 := funext fun a => by fin_cases a <;> rfl

section Cases
variable {F : FTy → Type} [FloatOps F]

/-- At an odd point the key–value buffer ends at the running block plus this tile's products. -/
theorem out_B_3 (c : Dev nD) (i : grid0.Coords) (a2 : Memref sig .tc .vmem S1x256x2048 .f32) (h2 : a2.IsWhole)
    (a3 : Memref sig .tc .vmem S512x256 .bf16) (h3 : a3.IsWhole) (a4 : Memref sig .tc .vmem S512x1 .f32) (h4 : a4.IsWhole)
    (a5 : Memref sig .tc .vmem S1x256x256 .f32) (h5 : a5.IsWhole) (a6 : Memref sig .tc .vmem S1x1x2048 .f32) (h6 : a6.IsWhole)
    (hc : ¬cond0_0 i) (x0 : Vec F S1x256x2048 .f32) (x1 : Vec F S512x256 .bf16) (x2 : Vec F S512x1 .f32)
    (xo3 : Vec F S1x256x256 .f32) :
    out0_B_3 c i a2 h2 a3 h3 a4 h4 a5 h5 a6 h6 hc x0 x1 x2 xo3 = k0_pay5 x0 x1 x2 xo3 := by
  unfold out0_B_3
  rw [View.read_writes_eq_canon _ _ _ (cover0_B_3 c i a2 h2 a3 h3 a4 h4 a5 h5 a6 h6 hc x0 x1 x2 xo3)]
  unfold kernelRun0_B
  dsimp only
  rw [View.canon_unit_zero hz3]
  simp only [View.readAt_eq_ld, h2.read_unread, h3.read_unread, h4.read_unread, h5.read_unread,
    View.ld_unit_zero (S := S1x256x2048) hz3, View.ld_unit_zero (S := S512x256) hz2, View.ld_unit_zero (S := S512x1) hz2,
    View.ld_unit_zero (S := S1x256x256) hz3]

/-- At an even point the buffer is first set to the zero block, so it ends at the zero block plus this tile's products. -/
theorem out_A_3 (c : Dev nD) (i : grid0.Coords) (a2 : Memref sig .tc .vmem S1x256x2048 .f32) (h2 : a2.IsWhole)
    (a3 : Memref sig .tc .vmem S512x256 .bf16) (h3 : a3.IsWhole) (a4 : Memref sig .tc .vmem S512x1 .f32) (h4 : a4.IsWhole)
    (a5 : Memref sig .tc .vmem S1x256x256 .f32) (h5 : a5.IsWhole) (a6 : Memref sig .tc .vmem S1x1x2048 .f32) (h6 : a6.IsWhole)
    (hc : cond0_0 i) (x0 : Vec F S1x256x2048 .f32) (x1 : Vec F S512x256 .bf16) (x2 : Vec F S512x1 .f32) :
    out0_A_3 c i a2 h2 a3 h3 a4 h4 a5 h5 a6 h6 hc x0 x1 x2 = k0_pay5 x0 x1 x2 (k0_pay2 (F := F)) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_cons_unit_zero (S := S1x256x256) hz3, View.readCov_unit_zero (S := S1x256x256) _ hz3]
  simp only [View.readAt_eq_ld, h2.read_unread, h3.read_unread, h4.read_unread,
    View.ld_unit_zero (S := S1x256x2048) hz3, View.ld_unit_zero (S := S512x256) hz2, View.ld_unit_zero (S := S512x1) hz2,
    View.ld_unit_zero (S := S1x256x256) hz3]

/-- At every point the normaliser buffer ends at this tile's channel sums. -/
theorem out_A_4 (c : Dev nD) (i : grid0.Coords) (a2 : Memref sig .tc .vmem S1x256x2048 .f32) (h2 : a2.IsWhole)
    (a3 : Memref sig .tc .vmem S512x256 .bf16) (h3 : a3.IsWhole) (a4 : Memref sig .tc .vmem S512x1 .f32) (h4 : a4.IsWhole)
    (a5 : Memref sig .tc .vmem S1x256x256 .f32) (h5 : a5.IsWhole) (a6 : Memref sig .tc .vmem S1x1x2048 .f32) (h6 : a6.IsWhole)
    (hc : cond0_0 i) (x0 : Vec F S1x256x2048 .f32) (x1 : Vec F S512x256 .bf16) (x2 : Vec F S512x1 .f32) :
    out0_A_4 c i a2 h2 a3 h3 a4 h4 a5 h5 a6 h6 hc x0 x1 x2 = k0_pay1 (k0_pay6 x0 x1 x2) := by
  unfold out0_A_4
  rw [View.read_writes_eq_canon _ _ _ (cover0_A_4 c i a2 h2 a3 h3 a4 h4 a5 h5 a6 h6 hc x0 x1 x2)]
  unfold kernelRun0_A
  dsimp only
  sl_unfold_words
  rw [View.canon_unit_zero hz3]
  simp only [View.readAt_eq_ld, h2.read_unread, h3.read_unread, h4.read_unread,
    View.ld_unit_zero (S := S1x256x2048) hz3, View.ld_unit_zero (S := S512x256) hz2, View.ld_unit_zero (S := S512x1) hz2]

theorem out_B_4 (c : Dev nD) (i : grid0.Coords) (a2 : Memref sig .tc .vmem S1x256x2048 .f32) (h2 : a2.IsWhole)
    (a3 : Memref sig .tc .vmem S512x256 .bf16) (h3 : a3.IsWhole) (a4 : Memref sig .tc .vmem S512x1 .f32) (h4 : a4.IsWhole)
    (a5 : Memref sig .tc .vmem S1x256x256 .f32) (h5 : a5.IsWhole) (a6 : Memref sig .tc .vmem S1x1x2048 .f32) (h6 : a6.IsWhole)
    (hc : ¬cond0_0 i) (x0 : Vec F S1x256x2048 .f32) (x1 : Vec F S512x256 .bf16) (x2 : Vec F S512x1 .f32)
    (xo3 : Vec F S1x256x256 .f32) :
    out0_B_4 c i a2 h2 a3 h3 a4 h4 a5 h5 a6 h6 hc x0 x1 x2 xo3 = k0_pay1 (k0_pay6 x0 x1 x2) := by
  unfold out0_B_4
  rw [View.read_writes_eq_canon _ _ _ (cover0_B_4 c i a2 h2 a3 h3 a4 h4 a5 h5 a6 h6 hc x0 x1 x2 xo3)]
  unfold kernelRun0_B
  dsimp only
  sl_unfold_words
  rw [View.canon_unit_zero hz3]
  simp only [View.readAt_eq_ld, h2.read_unread, h3.read_unread, h4.read_unread,
    View.ld_unit_zero (S := S1x256x2048) hz3, View.ld_unit_zero (S := S512x256) hz2, View.ld_unit_zero (S := S512x1) hz2]

end Cases

end Cert.KernelIdeal.KBody0

end
-- ==== Proof.KReg0.lean ====
/-
  The first kernel region's two result arrays, as functions of the arrays the region finds.

  The grid has sixteen points t; point t works on batch b = t / 2 and on the half h = t % 2 of that batch's 4096 token
  positions. With  P[b, r, m] = (Σ_d W[r, d] · x[b, d, m]) + β[r, 0]  (rows r < 256 the key projection, rows 256 + e the
  value projection), a point adds to its batch's running key–value block the products over its 2048 positions,

      block[0, c, e]  +=  Σ_{m in the half} φ(P[b, c, m]) · P[b, 256 + e, m],

  starting from the zero block at the even point and writing the block back after the odd point; and it writes, at every
  point, the stretch  z[0, 0, m] = Σ_c φ(P[b, c, m])  of the normaliser row. A batch is therefore two tiles: the block
  written back is (0 + first half's sum) + second half's sum, which over the extended reals is the sum over all 4096
  positions. So after the region

      KV0[b, c, e] = Σ_m φ(P[b, c, m]) · P[b, 256 + e, m]          Z0[b, 0, m] = Σ_c φ(P[b, c, m]).
-/
import proofs.«123487_j59785944761114_2_alg».proof.Proof.Gen.KernelIdeal.Frame
import proofs.«123487_j59785944761114_2_alg».proof.Proof.KPay0
import proofs.«123487_j59785944761114_2_alg».proof.Proof.KBody0
import Idealize.ShloMosaic.Lib.Pipeline.Value
import Idealize.ShloMosaic.Lib.Tactic

set_option maxRecDepth 16384

noncomputable section

namespace Cert.KernelIdeal.KReg0

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)
open Cert.LinAttn (phi)
open Cert.KernelIdeal.KPay0 (pre)
open Cert.KernelIdeal.KBody0 (out_A_3 out_B_3 out_A_4 out_B_4)

/-! ## The two result arrays (over the extended reals) -/

section Arrays

variable (V : (c : Dev nD) → (b : Ref sig .tc) → Buf (Elt Ideal) ((c : Thread nD τ).loc b))

/-- P[b, r, m] = (Σ_d W[r, d] · x[b, d, m]) + β[r, 0]. -/
def P (xa : FVec Ideal S8x256x4096 .f32) (w : FVec Ideal S512x256 .bf16) (β : FVec Ideal S512x1 .f32)
    (b : Fin 8) (r : Fin 512) (m : Fin 4096) : EReal :=
  (∑ d : Fin 256, w (ix2 r d) * xa (ix3 b d m)) + β (ix2 r (0 : Fin 1))

def kvEnt (xa : FVec Ideal S8x256x4096 .f32) (w : FVec Ideal S512x256 .bf16) (β : FVec Ideal S512x1 .f32)
    (b : Fin 8) (k e : Fin 256) : EReal :=
  ∑ m : Fin 4096, phi (P xa w β b ⟨k.val, by omega⟩ m) * P xa w β b ⟨256 + e.val, by omega⟩ m

def zEnt (xa : FVec Ideal S8x256x4096 .f32) (w : FVec Ideal S512x256 .bf16) (β : FVec Ideal S512x1 .f32)
    (b : Fin 8) (m : Fin 4096) : EReal :=
  ∑ k : Fin 256, phi (P xa w β b ⟨k.val, by omega⟩ m)

/-- The key–value array after the region. -/
def KV0 (xa : FVec Ideal S8x256x4096 .f32) (w : FVec Ideal S512x256 .bf16) (β : FVec Ideal S512x1 .f32) :
    FVec Ideal S8x256x256 .f32 := fun i => kvEnt xa w β (i 0) (i 1) (i 2)

/-- The normaliser array after the region. -/
def Z0 (xa : FVec Ideal S8x256x4096 .f32) (w : FVec Ideal S512x256 .bf16) (β : FVec Ideal S512x1 .f32) :
    FVec Ideal S8x1x4096 .f32 := fun i => zEnt xa w β (i 0) (i 2)

/-- The printed index maps over the grid: point t is (batch t / 2, half t % 2). -/
theorem idx0 : ∀ t : Fin cfg0.N,
    win0_0.index t (0 : Fin 3) = t.val / 2 ∧ win0_0.index t (1 : Fin 3) = 0 ∧ win0_0.index t (2 : Fin 3) = t.val % 2
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 2 ∧ win0_3.index t (1 : Fin 3) = 0 ∧ win0_3.index t (2 : Fin 3) = 0
    ∧ win0_4.index t (0 : Fin 3) = t.val / 2 ∧ win0_4.index t (1 : Fin 3) = 0 ∧ win0_4.index t (2 : Fin 3) = t.val % 2 :=
  (by decide +kernel : ∀ t : Fin grid0.N, _)

def bt (t : Fin cfg0.N) : Fin 8 := ⟨t.val / 2, by have h : t.val < 16 := lt_of_lt_of_eq t.isLt N_0; omega⟩
def mt (t : Fin cfg0.N) (mm : Fin 2048) : Fin 4096 := ⟨t.val % 2 * 2048 + mm.val, by omega⟩
/-- The point before. -/
def prev (t : Fin cfg0.N) : Fin cfg0.N := ⟨t.val - 1, Nat.lt_of_le_of_lt (Nat.sub_le _ _) t.isLt⟩

/-! ### Each input block read where it sits in its array -/

theorem read0 (c : Dev nD) (t : Fin cfg0.N) (d : Fin 256) (mm : Fin 2048) :
    (iblk0 V c 0 t : FVec Ideal S1x256x2048 .f32) (ix3 (0 : Fin 1) d mm) = V c main_v0 (ix3 (bt t) d (mt t mm)) := by
  obtain ⟨e0, e1, e2, -⟩ := idx0 t
  unfold iblk0
  rw [View.read_apply]
  refine congrArg (V c main_v0) (funext fun a => Fin.ext ?_)
  match a with
  | ⟨0, _⟩ => show win0_0.index t (0 : Fin 3) * 1 + 1 * 0 = t.val / 2; omega
  | ⟨1, _⟩ => show win0_0.index t (1 : Fin 3) * 256 + 1 * d.val = d.val; omega
  | ⟨2, _⟩ => show win0_0.index t (2 : Fin 3) * 2048 + 1 * mm.val = t.val % 2 * 2048 + mm.val; omega

theorem read1 (c : Dev nD) (t : Fin cfg0.N) (r : Fin 512) (d : Fin 256) :
    (iblk0 V c 1 t : FVec Ideal S512x256 .bf16) (ix2 r d) = V c main_v2 (ix2 r d) := by
  obtain ⟨-, -, -, e0, e1, -⟩ := idx0 t
  unfold iblk0
  rw [View.read_apply]
  refine congrArg (V c main_v2) (funext fun a => Fin.ext ?_)
  match a with
  | ⟨0, _⟩ => show win0_1.index t (0 : Fin 2) * 512 + 1 * r.val = r.val; omega
  | ⟨1, _⟩ => show win0_1.index t (1 : Fin 2) * 256 + 1 * d.val = d.val; omega

theorem read2 (c : Dev nD) (t : Fin cfg0.N) (r : Fin 512) :
    (iblk0 V c 2 t : FVec Ideal S512x1 .f32) (ix2 r (0 : Fin 1)) = V c main_v4 (ix2 r (0 : Fin 1)) := by
  obtain ⟨-, -, -, -, -, e0, e1, -⟩ := idx0 t
  unfold iblk0
  rw [View.read_apply]
  refine congrArg (V c main_v4) (funext fun a => Fin.ext ?_)
  match a with
  | ⟨0, _⟩ => show win0_2.index t (0 : Fin 2) * 512 + 1 * r.val = r.val; omega
  | ⟨1, _⟩ => show win0_2.index t (1 : Fin 2) * 1 + 1 * 0 = 0; omega

/-- The pre-activations of a point's blocks are the array's, at the point's batch and token positions. -/
theorem pre_blocks (c : Dev nD) (t : Fin cfg0.N) (r : Fin 512) (mm : Fin 2048) :
    pre (iblk0 V c 0 t) (iblk0 V c 1 t) (iblk0 V c 2 t) r mm
      = P (V c main_v0) (V c main_v2) (V c main_v4) (bt t) r (mt t mm) := by
  unfold pre P
  simp only [read0 V c t, read1 V c t, read2 V c t]

/-! ### What the output buffers hold at the flushing points -/

/-- After an odd point the key–value buffer holds the zero block plus the two tiles' products, in order. -/
theorem outs3_odd (c : Dev nD) (t : Fin cfg0.N) (h : t.val % 2 = 1) :
    (outsAt0 V c t.val t.isLt).1
      = k0_pay5 (iblk0 V c 0 t) (iblk0 V c 1 t) (iblk0 V c 2 t)
          (k0_pay5 (iblk0 V c 0 (prev t)) (iblk0 V c 1 (prev t)) (iblk0 V c 2 (prev t)) (k0_pay2 (F := Ideal))) := by
  have hB : ¬ t.val % 2 = 0 := by omega
  have hA : (prev t).val % 2 = 0 := by show (t.val - 1) % 2 = 0; omega
  refine (congrArg Prod.fst (outsAt0_B V c t hB)).trans ?_
  dsimp only
  refine (out_B_3 (F := Ideal) c (grid0.coords t) (ms0_0 t) (hs0_0 t) (ms0_1 t) (hs0_1 t) (ms0_2 t) (hs0_2 t) (ms0_3 t) (hs0_3 t) (ms0_4 t) (hs0_4 t) (fun h' => hB ((hcond0_0 t).mp h')) (iblk0 V c 0 t) (iblk0 V c 1 t) (iblk0 V c 2 t) _).trans ?_
  refine congrArg (k0_pay5 (F := Ideal) (iblk0 V c 0 t) (iblk0 V c 1 t) (iblk0 V c 2 t)) ?_
  refine (congrArg Prod.fst (outsAt0_A V c (prev t) hA)).trans ?_
  dsimp only
  exact out_A_3 (F := Ideal) c (grid0.coords (prev t)) (ms0_0 (prev t)) (hs0_0 (prev t)) (ms0_1 (prev t)) (hs0_1 (prev t)) (ms0_2 (prev t)) (hs0_2 (prev t)) (ms0_3 (prev t)) (hs0_3 (prev t)) (ms0_4 (prev t)) (hs0_4 (prev t)) ((hcond0_0 (prev t)).mpr hA) (iblk0 V c 0 (prev t)) (iblk0 V c 1 (prev t)) (iblk0 V c 2 (prev t))

/-- After every point the normaliser buffer holds that tile's channel sums. -/
theorem outs4 (c : Dev nD) (t : Fin cfg0.N) :
    (outsAt0 V c t.val t.isLt).2 = k0_pay1 (k0_pay6 (iblk0 V c 0 t) (iblk0 V c 1 t) (iblk0 V c 2 t)) := by
  by_cases h : t.val % 2 = 0
  · refine (congrArg Prod.snd (outsAt0_A V c t h)).trans ?_
    dsimp only
    exact out_A_4 (F := Ideal) c (grid0.coords t) (ms0_0 t) (hs0_0 t) (ms0_1 t) (hs0_1 t) (ms0_2 t) (hs0_2 t) (ms0_3 t) (hs0_3 t) (ms0_4 t) (hs0_4 t) ((hcond0_0 t).mpr h) (iblk0 V c 0 t) (iblk0 V c 1 t) (iblk0 V c 2 t)
  · refine (congrArg Prod.snd (outsAt0_B V c t h)).trans ?_
    dsimp only
    exact out_B_4 (F := Ideal) c (grid0.coords t) (ms0_0 t) (hs0_0 t) (ms0_1 t) (hs0_1 t) (ms0_2 t) (hs0_2 t) (ms0_3 t) (hs0_3 t) (ms0_4 t) (hs0_4 t) (fun h' => h ((hcond0_0 t).mp h')) (iblk0 V c 0 t) (iblk0 V c 1 t) (iblk0 V c 2 t) _

/-- A sum over 4096 positions is the sum over the first 2048 plus the sum over the last 2048 (and a leading zero adds
    nothing). -/
theorem sum_halves (f : Fin 4096 → EReal) :
    (0 + ∑ mm : Fin 2048, f ⟨mm.val, by omega⟩) + ∑ mm : Fin 2048, f ⟨2048 + mm.val, by omega⟩ = ∑ m : Fin 4096, f m := by
  rw [zero_add]
  exact (Fin.sum_univ_add (M := EReal) (a := 2048) (b := 2048) fun i => f ⟨i.val, by have := i.isLt; omega⟩).symm

/-- Entry (0, k, e) of the block written back after an odd point t is entry (t / 2, k, e) of KV0. -/
theorem point3 (c : Dev nD) (t : Fin cfg0.N) (h : t.val % 2 = 1) (u : Fin 1) (k e : Fin 256) :
    k0_pay5 (F := Ideal) (iblk0 V c 0 t) (iblk0 V c 1 t) (iblk0 V c 2 t)
        (k0_pay5 (iblk0 V c 0 (prev t)) (iblk0 V c 1 (prev t)) (iblk0 V c 2 (prev t)) (k0_pay2 (F := Ideal))) (ix3 u k e)
      = KV0 (V c main_v0) (V c main_v2) (V c main_v4) (ix3 (bt t) k e) := by
  refine (Cert.KernelIdeal.KPay0.pay5_apply (iblk0 V c 0 t) (iblk0 V c 1 t) (iblk0 V c 2 t) _ u k e).trans ?_
  refine (congrArg (· + _) ((Cert.KernelIdeal.KPay0.pay5_apply (iblk0 V c 0 (prev t)) (iblk0 V c 1 (prev t))
    (iblk0 V c 2 (prev t)) _ u k e).trans (congrArg (· + _) (Cert.KernelIdeal.KPay0.pay2_apply _)))).trans ?_
  have hb : bt (prev t) = bt t := Fin.ext (by show (t.val - 1) / 2 = t.val / 2; omega)
  have hm0 : ∀ mm : Fin 2048, mt (prev t) mm = ⟨mm.val, by omega⟩ :=
    fun mm => Fin.ext (by show (t.val - 1) % 2 * 2048 + mm.val = mm.val; omega)
  have hm1 : ∀ mm : Fin 2048, mt t mm = ⟨2048 + mm.val, by omega⟩ :=
    fun mm => Fin.ext (by show t.val % 2 * 2048 + mm.val = 2048 + mm.val; omega)
  simp only [pre_blocks V c, hb, hm0, hm1]
  exact sum_halves fun m => phi (P (V c main_v0) (V c main_v2) (V c main_v4) (bt t) ⟨k.val, by omega⟩ m)
    * P (V c main_v0) (V c main_v2) (V c main_v4) (bt t) ⟨256 + e.val, by omega⟩ m

/-- Entry (0, 0, m) of the row written back after point t is entry (t / 2, 0, 2048·(t % 2) + m) of Z0. -/
theorem point4 (c : Dev nD) (t : Fin cfg0.N) (u w : Fin 1) (mm : Fin 2048) :
    k0_pay1 (F := Ideal) (k0_pay6 (iblk0 V c 0 t) (iblk0 V c 1 t) (iblk0 V c 2 t)) (ix3 u w mm)
      = Z0 (V c main_v0) (V c main_v2) (V c main_v4) (ix3 (bt t) (0 : Fin 1) (mt t mm)) := by
  refine (Cert.KernelIdeal.KPay0.pay1_apply _ u w mm).trans ?_
  refine (Cert.KernelIdeal.KPay0.pay6_apply (iblk0 V c 0 t) (iblk0 V c 1 t) (iblk0 V c 2 t) mm).trans ?_
  show _ = zEnt (V c main_v0) (V c main_v2) (V c main_v4) (bt t) (mt t mm)
  unfold zEnt
  simp only [pre_blocks V c]

/-! ### The write-backs, the covers, the arrays -/

theorem flushed3_eq (c : Dev nD) (t : Fin cfg0.N) (hf : (cfg0.win 3).flush t = true) :
    (dat0 V c).flushed 3 t = ((cfg0.win 3).blk t).view.read (Elt Ideal) (KV0 (V c main_v0) (V c main_v2) (V c main_v4)) := by
  have h1 : t.val % 2 = 1 := (flush0_3 t).mp hf
  show (cfg0.win 3).cut (grid0.coords t) ((dat0 V c).after 3 t) = _
  rw [after0_3, outs3_odd V c t h1]
  funext j
  rw [View.read_apply]
  obtain ⟨-, -, -, -, -, -, -, e0, e1, e2, -⟩ := idx0 t
  have hj0 : (j 0).val < 1 := (j 0).isLt
  have hj1 : (j 1).val < 256 := (j 1).isLt
  have hj2 : (j 2).val < 256 := (j 2).isLt
  have hemb : ((cfg0.win 3).blk t).view.emb j = ix3 (bt t) (⟨(j 1).val, hj1⟩ : Fin 256) (⟨(j 2).val, hj2⟩ : Fin 256) := by
    funext a; apply Fin.ext
    match a with
    | ⟨0, _⟩ => show win0_3.index t (0 : Fin 3) * 1 + 1 * (j 0).val = t.val / 2; omega
    | ⟨1, _⟩ => show win0_3.index t (1 : Fin 3) * 256 + 1 * (j 1).val = (j 1).val; omega
    | ⟨2, _⟩ => show win0_3.index t (2 : Fin 3) * 256 + 1 * (j 2).val = (j 2).val; omega
  have hj : j = ix3 (⟨(j 0).val, hj0⟩ : Fin 1) (⟨(j 1).val, hj1⟩ : Fin 256) (⟨(j 2).val, hj2⟩ : Fin 256) := by
    funext a; apply Fin.ext
    match a with
    | ⟨0, _⟩ => rfl
    | ⟨1, _⟩ => rfl
    | ⟨2, _⟩ => rfl
  rw [hemb]
  exact (congrArg _ hj).trans (point3 V c t h1 _ _ _)

theorem flushed4_eq (c : Dev nD) (t : Fin cfg0.N) :
    (dat0 V c).flushed 4 t = ((cfg0.win 4).blk t).view.read (Elt Ideal) (Z0 (V c main_v0) (V c main_v2) (V c main_v4)) := by
  show (cfg0.win 4).cut (grid0.coords t) ((dat0 V c).after 4 t) = _
  rw [after0_4, outs4 V c t]
  funext j
  rw [View.read_apply]
  obtain ⟨-, -, -, -, -, -, -, -, -, -, e0, e1, e2⟩ := idx0 t
  have hj0 : (j 0).val < 1 := (j 0).isLt
  have hj1 : (j 1).val < 1 := (j 1).isLt
  have hj2 : (j 2).val < 2048 := (j 2).isLt
  have hemb : ((cfg0.win 4).blk t).view.emb j = ix3 (bt t) (0 : Fin 1) (mt t ⟨(j 2).val, hj2⟩) := by
    funext a; apply Fin.ext
    match a with
    | ⟨0, _⟩ => show win0_4.index t (0 : Fin 3) * 1 + 1 * (j 0).val = t.val / 2; omega
    | ⟨1, _⟩ => show win0_4.index t (1 : Fin 3) * 1 + 1 * (j 1).val = 0; omega
    | ⟨2, _⟩ => show win0_4.index t (2 : Fin 3) * 2048 + 1 * (j 2).val = t.val % 2 * 2048 + (j 2).val; omega
  have hj : j = ix3 (⟨(j 0).val, hj0⟩ : Fin 1) (⟨(j 1).val, hj1⟩ : Fin 1) (⟨(j 2).val, hj2⟩ : Fin 2048) := by
    funext a; apply Fin.ext
    match a with
    | ⟨0, _⟩ => rfl
    | ⟨1, _⟩ => rfl
    | ⟨2, _⟩ => rfl
  rw [hemb]
  exact (congrArg _ hj).trans (point4 V c t _ _ _)

/-- Every batch's key–value block is some odd point's; every stretch of every normaliser row is some point's. -/
theorem idx_onto3 : ∀ q0 : Fin 8, ∃ t : Fin cfg0.N, t.val % 2 = 1 ∧ win0_3.index t = ![q0.val, 0, 0] :=
  (by decide +kernel : ∀ q0 : Fin 8, ∃ t : Fin grid0.N, t.val % 2 = 1 ∧ win0_3.index t = ![q0.val, 0, 0])
theorem idx_onto4 : ∀ (q0 : Fin 8) (q2 : Fin 2), ∃ t : Fin cfg0.N, win0_4.index t = ![q0.val, 0, q2.val] :=
  (by decide +kernel : ∀ (q0 : Fin 8) (q2 : Fin 2), ∃ t : Fin grid0.N, win0_4.index t = ![q0.val, 0, q2.val])

theorem mem_blk3 (t : Fin cfg0.N) (i : S8x256x256.Idx) :
    i ∈ ((cfg0.win 3).blk t).view.set ↔ ∀ a : Fin 3, win0_3.index t a * S1x256x256.size a ≤ (i a).val ∧ (i a).val < win0_3.index t a * S1x256x256.size a + S1x256x256.size a := by
  show i ∈ ((View.whole main_v7_0).slice (win0_3.rect t)).set ↔ _
  rw [View.set_slice_whole, Rect.mem_set_unit]
  exact Iff.rfl

theorem mem_blk4 (t : Fin cfg0.N) (i : S8x1x4096.Idx) :
    i ∈ ((cfg0.win 4).blk t).view.set ↔ ∀ a : Fin 3, win0_4.index t a * S1x1x2048.size a ≤ (i a).val ∧ (i a).val < win0_4.index t a * S1x1x2048.size a + S1x1x2048.size a := by
  show i ∈ ((View.whole main_v7_1).slice (win0_4.rect t)).set ↔ _
  rw [View.set_slice_whole, Rect.mem_set_unit]
  exact Iff.rfl

theorem cover3 (i : S8x256x256.Idx) : ∃ t : Fin cfg0.N, (cfg0.win 3).flush t = true ∧ i ∈ ((cfg0.win 3).blk t).view.set := by
  have hi0 : (i 0).val < 8 := (i 0).isLt
  have hi1 : (i 1).val < 256 := (i 1).isLt
  have hi2 : (i 2).val < 256 := (i 2).isLt
  obtain ⟨t, hodd, ht⟩ := idx_onto3 ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, (flush0_3 t).mpr hodd, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 256 ≤ (i 2).val ∧ (i 2).val < win0_3.index t (2 : Fin 3) * 256 + 256; omega

theorem cover4 (i : S8x1x4096.Idx) : ∃ t : Fin cfg0.N, (cfg0.win 4).flush t = true ∧ i ∈ ((cfg0.win 4).blk t).view.set := by
  have hi0 : (i 0).val < 8 := (i 0).isLt
  have hi1 : (i 1).val < 1 := (i 1).isLt
  have hi2 : (i 2).val < 4096 := (i 2).isLt
  obtain ⟨t, ht⟩ := idx_onto4 ⟨(i 0).val, hi0⟩ ⟨(i 2).val / 2048, by omega⟩
  have q0 : win0_4.index t (0 : Fin 3) = (i 0).val := congrFun ht 0
  have q1 : win0_4.index t (1 : Fin 3) = 0 := congrFun ht 1
  have q2 : win0_4.index t (2 : Fin 3) = (i 2).val / 2048 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 2048 ≤ (i 2).val ∧ (i 2).val < win0_4.index t (2 : Fin 3) * 2048 + 2048; omega

/-- THE KEY–VALUE ARRAY after the region. -/
theorem final3 (c : Dev nD) : (dat0 V c).arrAt 3 cfg0.N = KV0 (V c main_v0) (V c main_v2) (V c main_v4) :=
  (dat0 V c).arrAt_eq_of_cover 3 _ (fun t hf => flushed3_eq V c t hf) cover3

/-- THE NORMALISER ARRAY after the region. -/
theorem final4 (c : Dev nD) : (dat0 V c).arrAt 4 cfg0.N = Z0 (V c main_v0) (V c main_v2) (V c main_v4) :=
  (dat0 V c).arrAt_eq_of_cover 4 _ (fun t _ => flushed4_eq V c t) cover4

end Arrays

end Cert.KernelIdeal.KReg0

end
-- ==== Proof.KPay1.lean ====
/-
  The arithmetic of the second kernel's body, read entry by entry over the extended reals.

  One grid point sees 2048 query rows x[0, n, d], the query projection Wq[c, d] and bias bq[c], one batch's key–value
  block kv[0, c, d], the matching stretch of the normaliser row z[0, 0, n], and the output projection Wo[e, d], bo[e]:

    q[n, c]  = φ((Σ_d x[0, n, d] · Wq[c, d]) + bq[c])
    a[n, d]  = (Σ_c q[n, c] · kv[0, c, d]) / ((Σ_c q[n, c]) · z[0, 0, n] + ε)
    out[0, n, e] = (Σ_d a[n, d] · Wo[e, d]) + bo[e]
-/
import proofs.«123487_j59785944761114_2_alg».proof.Proof.Gen.KernelIdeal.Skeleton
import proofs.«123487_j59785944761114_2_alg».proof.Proof.Spec
import proofs.«123487_j59785944761114_2_alg».proof.Proof.LibKeepdims
import proofs.«123487_j59785944761114_2_alg».proof.Proof.LibPlainDot
import proofs.«123487_j59785944761114_2_alg».proof.Proof.LibTransposedRhsDot
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.KPay1

open Cert.KernelIdeal Cert.KernelIdeal.Gen
open Idealize.ShloMosaic Idealize.ShloMosaic.ValueIdx
open Cert.LinAttn (phi lin eps)

variable {α : Type}

/-- A [1, 1, c] array cast to [c] reads, at k, the operand at (0, 0, k): both sit at row-major position k. -/
theorem shapeCast_11c_c_apply {c : ℕ} (x : (⟨3, ![1, 1, c]⟩ : Shape).Idx → α)
    (h : (⟨3, ![1, 1, c]⟩ : Shape).ShapeCasts ⟨1, ![c]⟩) (k : Fin c) :
    shapeCast ⟨1, ![c]⟩ x h (ix1 k) = x (ix3 (0 : Fin 1) (0 : Fin 1) k) :=
  shapeCast_apply x h _ _ (by
    rw [Shape.rowMajor_val_three, Shape.rowMajor_val_one]
    show (0 * 1 + 0) * c + k.val = k.val
    simp)

/-- The kernel's spelling of the feature map, on a whole array P, read at an index: φ of P there. -/
theorem featmap_apply {s : Shape} (P : FVec Ideal s .f32) (i : s.Idx) :
    addf (select (cmpf .ogt P (broadcast s (Scalar.ofBits (F := Ideal) .f32 0x00000000#32))) P
        (subf (exp (minimumf P (broadcast s (Scalar.ofBits (F := Ideal) .f32 0x00000000#32))))
          (broadcast s (Scalar.ofBits (F := Ideal) .f32 0x3F800000#32))))
      (broadcast s (Scalar.ofBits (F := Ideal) .f32 0x3F800000#32)) i = phi (P i) := by
  have hsb : ∀ w : BitVec 32, Scalar.ofBits (F := Ideal) .f32 w = Ideal.ofBits .f32 w := fun _ => rfl
  simp only [addf_apply, select_apply, cmpf_apply, subf_apply, minimumf_apply, broadcast_apply,
    Ideal.cmpf_def, Ideal.minimumf_def, Ideal.subf_def, Ideal.addf_def, Ideal.exp_def, exp, hsb]
  exact Cert.LinAttn.phi_of_min _

/-- q[n, c]: a projected query row through the feature map. -/
def qrow (v0 : FVec Ideal S1x2048x256 .f32) (v3 : FVec Ideal S256x256 .bf16) (v6 : FVec Ideal S256 .f32)
    (n : Fin 2048) (c : Fin 256) : EReal :=
  phi (lin (fun d => v0 (ix3 (0 : Fin 1) n d)) v3 v6 c)

/-- a[n, d]: the normalised attention row of this point. -/
theorem pay2_apply (v0 : FVec Ideal S1x2048x256 .f32) (v3 : FVec Ideal S256x256 .bf16) (v6 : FVec Ideal S256 .f32)
    (v21 : FVec Ideal S1x256x256 .f32) (v25 : FVec Ideal S1x1x2048 .f32) (n : Fin 2048) (d : Fin 256) :
    k1_pay2 (F := Ideal) v0 v3 v6 v21 v25 (ix2 n d)
      = Ideal.div (∑ c : Fin 256, qrow v0 v3 v6 n c * v21 (ix3 (0 : Fin 1) c d))
          ((∑ c : Fin 256, qrow v0 v3 v6 n c) * v25 (ix3 (0 : Fin 1) (0 : Fin 1) n) + eps) := by
  have hsb : ∀ w : BitVec 32, Scalar.ofBits (F := Ideal) .f32 w = Ideal.ofBits .f32 w := fun _ => rfl
  -- the projected row before the feature map
  have hpre : ∀ c : Fin 256,
      addf (matmul dot_S2048x256_S256x256_S2048x256_1_1_0_0_n_n none
          (truncf .bf16 (shapeCast S2048x256 v0 shapeCasts_S1x2048x256_S2048x256) bitsLt_bf16_f32)
          (shapeCast S256x256 v3 shapeCasts_S256x256_S256x256) (constant (F := Ideal) S2048x256 .f32 0x00000000#32))
        (broadcastTo S2048x256 (shapeCast S1x256 v6 shapeCasts_S256_S1x256) broadcasts_S1x256_S2048x256) (ix2 n c)
      = lin (fun d => v0 (ix3 (0 : Fin 1) n d)) v3 v6 c := fun c => by
    unfold lin
    refine (addf_apply _ _ _).trans (congrArg₂ (· + ·) ?_ ?_)
    · refine (Cert.LibTransposedRhsDot.matmul_zero_apply none _ _ n c).trans ?_
      refine Finset.sum_congr rfl fun d _ => congrArg₂ (· * ·) ?_ ?_
      · exact shapeCast_1ab_ab_apply v0 _ n d
      · exact congrFun (shapeCast_self v3 _) _
    · refine (broadcastTo_1b_ab_apply _ _ n c).trans ?_
      exact shapeCast_a_1a_apply v6 _ (0 : Fin 1) c
  have hq : ∀ c : Fin 256, _ = qrow v0 v3 v6 n c := fun c => (featmap_apply _ (ix2 n c)).trans (congrArg phi (hpre c))
  unfold k1_pay2
  refine (truncf_apply (φ := .f32) (ψ := .bf16) _ _ _).trans ?_
  refine (divf_apply _ _ _).trans ?_
  refine congrArg₂ Ideal.div ?_ ?_
  · refine (Cert.LibPlainDot.matmul_zero_apply 2048 256 256 none _ _ (ix2 n d)).trans ?_
    refine Finset.sum_congr rfl fun c _ => congrArg₂ (· * ·) ?_ ?_
    · exact (truncf_apply (φ := .f32) (ψ := .bf16) _ _ _).trans (hq c)
    · exact (truncf_apply (φ := .f32) (ψ := .bf16) _ _ _).trans (shapeCast_1ab_ab_apply v21 _ c d)
  · refine (Cert.Keepdims.broadcastTo_a1_ab_apply _ _ n d).trans ?_
    refine (addf_apply _ _ _).trans (congrArg₂ (· + ·) ?_ ?_)
    · refine (Cert.Keepdims.shapeCast_a_a1_apply _ _ n (0 : Fin 1)).trans ?_
      refine (mulf_apply _ _ _).trans (congrArg₂ (· * ·) ?_ ?_)
      · refine (Cert.Keepdims.laneSum_apply _ _ _ _ n).trans ?_
        exact Finset.sum_congr rfl fun c _ => hq c
      · exact shapeCast_11c_c_apply v25 _ n
    · rfl

/-- out[0, n, e]: the output projection of the attention row. -/
theorem pay1_apply (v34 : FVec Ideal S2048x256 .bf16) (v35 : FVec Ideal S256x256 .bf16) (v38 : FVec Ideal S256 .f32)
    (u : Fin 1) (n : Fin 2048) (e : Fin 256) :
    k1_pay1 (F := Ideal) v34 v35 v38 (ix3 u n e) = lin (fun d => v34 (ix2 n d)) v35 v38 e := by
  unfold k1_pay1 lin
  refine (shapeCast_ab_1ab_apply _ _ u n e).trans ?_
  refine (addf_apply _ _ _).trans (congrArg₂ (· + ·) ?_ ?_)
  · refine (Cert.LibTransposedRhsDot.matmul_zero_apply none _ _ n e).trans ?_
    refine Finset.sum_congr rfl fun d _ => congrArg₂ (· * ·) rfl ?_
    exact congrFun (shapeCast_self v35 _) _
  · refine (broadcastTo_1b_ab_apply _ _ n e).trans ?_
    exact shapeCast_a_1a_apply v38 _ (0 : Fin 1) e

end Cert.KernelIdeal.KPay1

end
-- ==== Proof.KReg1.lean ====
/-
  The second kernel region's result array, as one function of the arrays the region finds.

  The grid has sixteen points t; point t works on batch b = t / 2 and on the half h = t % 2 of its 4096 query rows
  (rows 2048·h … 2048·h + 2047). It reads that stretch of the query array, the whole query projection and bias, batch b's
  key–value block, the same stretch of batch b's normaliser row, the whole output projection and bias, and writes the same
  stretch of the result. Every entry (b, n, e) of the result lies in exactly the block of point 2·b + n / 2048, so after the
  last point the result array is, entry by entry,

    R1[b, n, e] = (Σ_d a[b, n, d] · Wo[e, d]) + bo[e],
    a[b, n, d]  = (Σ_c q[b, n, c] · KV[b, c, d]) / ((Σ_c q[b, n, c]) · Z[b, 0, n] + ε),   q = φ(query · Wqᵀ + bq),

  where KV and Z are the two arrays the first region left.
-/
import proofs.«123487_j59785944761114_2_alg».proof.Proof.Gen.KernelIdeal.Frame
import proofs.«123487_j59785944761114_2_alg».proof.Proof.KPay1
import Idealize.ShloMosaic.Lib.Pipeline.Value

set_option maxRecDepth 16384

noncomputable section

namespace Cert.KernelIdeal.KReg1

open Cert.KernelIdeal Cert.KernelIdeal.Gen
open Idealize.ShloMosaic Idealize.ShloMosaic.TcCoe Idealize.ShloMosaic.ValueIdx Idealize.SL.Sem
open Idealize.ShloMosaic.Pipeline (Dat)
open Cert.LinAttn (phi lin attn Q eps)
open Cert.KernelIdeal.KPay1 (qrow)

variable (V : (c : Dev nD) → (b : Ref sig .tc) → Buf (Elt Ideal) ((c : Thread nD τ).loc b))

/-- The result array of the region as a function of the seven arrays it reads. -/
def R1 (q : FVec Ideal S8x4096x256 .f32) (wq : FVec Ideal S256x256 .bf16) (bq : FVec Ideal S256 .f32)
    (kvA : FVec Ideal S8x256x256 .f32) (zA : FVec Ideal S8x1x4096 .f32) (wo : FVec Ideal S256x256 .bf16)
    (bo : FVec Ideal S256 .f32) : FVec Ideal S8x4096x256 .f32 :=
  fun i => lin (fun d => attn (Q q wq bq) (fun b c d => kvA (ix3 b c d)) (fun b n => zA (ix3 b (0 : Fin 1) n)) (i 0) (i 1) d)
    wo bo (i 2)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a; rfl

/-- The printed index maps over the grid: point t is (batch t / 2, half t % 2). -/
theorem idx1 : ∀ t : Fin cfg1.N,
    win1_0.index t (0 : Fin 3) = t.val / 2 ∧ win1_0.index t (1 : Fin 3) = t.val % 2 ∧ win1_0.index t (2 : Fin 3) = 0
    ∧ win1_1.index t (0 : Fin 2) = 0 ∧ win1_1.index t (1 : Fin 2) = 0
    ∧ win1_2.index t (0 : Fin 1) = 0
    ∧ win1_3.index t (0 : Fin 3) = t.val / 2 ∧ win1_3.index t (1 : Fin 3) = 0 ∧ win1_3.index t (2 : Fin 3) = 0
    ∧ win1_4.index t (0 : Fin 3) = t.val / 2 ∧ win1_4.index t (1 : Fin 3) = 0 ∧ win1_4.index t (2 : Fin 3) = t.val % 2
    ∧ win1_5.index t (0 : Fin 2) = 0 ∧ win1_5.index t (1 : Fin 2) = 0
    ∧ win1_6.index t (0 : Fin 1) = 0
    ∧ win1_7.index t (0 : Fin 3) = t.val / 2 ∧ win1_7.index t (1 : Fin 3) = t.val % 2 ∧ win1_7.index t (2 : Fin 3) = 0 :=
  (by decide +kernel : ∀ t : Fin grid1.N, _)

theorem N1 : cfg1.N = 16 := N_1

/-- The batch of point t, and the array row of the block row n at point t. -/
def bt (t : Fin cfg1.N) : Fin 8 := ⟨t.val / 2, by have h : t.val < 16 := lt_of_lt_of_eq t.isLt N1; omega⟩
def nt (t : Fin cfg1.N) (n : Fin 2048) : Fin 4096 := ⟨t.val % 2 * 2048 + n.val, by omega⟩

/-! ## Each input block read where it sits in its array -/

theorem read0 (c : Dev nD) (t : Fin cfg1.N) (n : Fin 2048) (d : Fin 256) :
    (iblk1 V c 0 t : FVec Ideal S1x2048x256 .f32) (ix3 (0 : Fin 1) n d) = V c main_arg0 (ix3 (bt t) (nt t n) d) := by
  obtain ⟨e0, e1, e2, -⟩ := idx1 t
  unfold iblk1
  rw [View.read_apply]
  refine congrArg (V c main_arg0) (funext fun a => Fin.ext ?_)
  match a with
  | ⟨0, _⟩ => show win1_0.index t (0 : Fin 3) * 1 + 1 * 0 = t.val / 2; omega
  | ⟨1, _⟩ => show win1_0.index t (1 : Fin 3) * 2048 + 1 * n.val = t.val % 2 * 2048 + n.val; omega
  | ⟨2, _⟩ => show win1_0.index t (2 : Fin 3) * 256 + 1 * d.val = d.val; omega

theorem read1 (c : Dev nD) (t : Fin cfg1.N) (e : Fin 256) (d : Fin 256) :
    (iblk1 V c 1 t : FVec Ideal S256x256 .bf16) (ix2 e d) = V c main_v5 (ix2 e d) := by
  obtain ⟨-, -, -, e0, e1, -⟩ := idx1 t
  unfold iblk1
  rw [View.read_apply]
  refine congrArg (V c main_v5) (funext fun a => Fin.ext ?_)
  match a with
  | ⟨0, _⟩ => show win1_1.index t (0 : Fin 2) * 256 + 1 * e.val = e.val; omega
  | ⟨1, _⟩ => show win1_1.index t (1 : Fin 2) * 256 + 1 * d.val = d.val; omega

theorem read2 (c : Dev nD) (t : Fin cfg1.N) (e : Fin 256) :
    (iblk1 V c 2 t : FVec Ideal S256 .f32) (ix1 e) = V c main_arg3 (ix1 e) := by
  obtain ⟨-, -, -, -, -, e0, -⟩ := idx1 t
  unfold iblk1
  rw [View.read_apply]
  refine congrArg (V c main_arg3) (funext fun a => Fin.ext ?_)
  match a with
  | ⟨0, _⟩ => show win1_2.index t (0 : Fin 1) * 256 + 1 * e.val = e.val; omega

theorem read3 (c : Dev nD) (t : Fin cfg1.N) (k : Fin 256) (d : Fin 256) :
    (iblk1 V c 3 t : FVec Ideal S1x256x256 .f32) (ix3 (0 : Fin 1) k d) = V c main_v7_0 (ix3 (bt t) k d) := by
  obtain ⟨-, -, -, -, -, -, e0, e1, e2, -⟩ := idx1 t
  unfold iblk1
  rw [View.read_apply]
  refine congrArg (V c main_v7_0) (funext fun a => Fin.ext ?_)
  match a with
  | ⟨0, _⟩ => show win1_3.index t (0 : Fin 3) * 1 + 1 * 0 = t.val / 2; omega
  | ⟨1, _⟩ => show win1_3.index t (1 : Fin 3) * 256 + 1 * k.val = k.val; omega
  | ⟨2, _⟩ => show win1_3.index t (2 : Fin 3) * 256 + 1 * d.val = d.val; omega

theorem read4 (c : Dev nD) (t : Fin cfg1.N) (n : Fin 2048) :
    (iblk1 V c 4 t : FVec Ideal S1x1x2048 .f32) (ix3 (0 : Fin 1) (0 : Fin 1) n) = V c main_v7_1 (ix3 (bt t) (0 : Fin 1) (nt t n)) := by
  obtain ⟨-, -, -, -, -, -, -, -, -, e0, e1, e2, -⟩ := idx1 t
  unfold iblk1
  rw [View.read_apply]
  refine congrArg (V c main_v7_1) (funext fun a => Fin.ext ?_)
  match a with
  | ⟨0, _⟩ => show win1_4.index t (0 : Fin 3) * 1 + 1 * 0 = t.val / 2; omega
  | ⟨1, _⟩ => show win1_4.index t (1 : Fin 3) * 1 + 1 * 0 = 0; omega
  | ⟨2, _⟩ => show win1_4.index t (2 : Fin 3) * 2048 + 1 * n.val = t.val % 2 * 2048 + n.val; omega

theorem read5 (c : Dev nD) (t : Fin cfg1.N) (e : Fin 256) (d : Fin 256) :
    (iblk1 V c 5 t : FVec Ideal S256x256 .bf16) (ix2 e d) = V c main_v6 (ix2 e d) := by
  obtain ⟨-, -, -, -, -, -, -, -, -, -, -, -, e0, e1, -⟩ := idx1 t
  unfold iblk1
  rw [View.read_apply]
  refine congrArg (V c main_v6) (funext fun a => Fin.ext ?_)
  match a with
  | ⟨0, _⟩ => show win1_5.index t (0 : Fin 2) * 256 + 1 * e.val = e.val; omega
  | ⟨1, _⟩ => show win1_5.index t (1 : Fin 2) * 256 + 1 * d.val = d.val; omega

theorem read6 (c : Dev nD) (t : Fin cfg1.N) (e : Fin 256) :
    (iblk1 V c 6 t : FVec Ideal S256 .f32) (ix1 e) = V c main_arg9 (ix1 e) := by
  obtain ⟨-, -, -, -, -, -, -, -, -, -, -, -, -, -, e0, -⟩ := idx1 t
  unfold iblk1
  rw [View.read_apply]
  refine congrArg (V c main_arg9) (funext fun a => Fin.ext ?_)
  match a with
  | ⟨0, _⟩ => show win1_6.index t (0 : Fin 1) * 256 + 1 * e.val = e.val; omega

/-! ## What one point writes back -/

/-- The stored block of a point, entry (0, n, e), from the point's seven input blocks. -/
theorem block_apply (x0 : FVec Ideal S1x2048x256 .f32) (x1 : FVec Ideal S256x256 .bf16) (x2 : FVec Ideal S256 .f32)
    (x3 : FVec Ideal S1x256x256 .f32) (x4 : FVec Ideal S1x1x2048 .f32) (x5 : FVec Ideal S256x256 .bf16)
    (x6 : FVec Ideal S256 .f32) (y : S1x2048x256.Idx) :
    k1_pay1 (F := Ideal) (k1_pay2 x0 x1 x2 x3 x4) x5 x6 y
      = lin (fun d => Ideal.div (∑ k : Fin 256, qrow x0 x1 x2 (y 1) k * x3 (ix3 (0 : Fin 1) k d))
          ((∑ k : Fin 256, qrow x0 x1 x2 (y 1) k) * x4 (ix3 (0 : Fin 1) (0 : Fin 1) (y 1)) + eps)) x5 x6 (y 2) := by
  conv_lhs => rw [eq_ix3 y]
  refine (Cert.KernelIdeal.KPay1.pay1_apply _ x5 x6 (y 0) (y 1) (y 2)).trans ?_
  exact congrArg (fun f => lin f x5 x6 (y 2)) (funext fun d => Cert.KernelIdeal.KPay1.pay2_apply x0 x1 x2 x3 x4 (y 1) d)

/-- Entry (0, n, e) of the block point t stores is entry (t / 2, 2048·(t % 2) + n, e) of R1 of the region's arrays. -/
theorem point_apply (c : Dev nD) (t : Fin cfg1.N) (u : Fin 1) (n : Fin 2048) (e : Fin 256) :
    k1_pay1 (F := Ideal) (k1_pay2 (iblk1 V c 0 t) (iblk1 V c 1 t) (iblk1 V c 2 t) (iblk1 V c 3 t) (iblk1 V c 4 t))
        (iblk1 V c 5 t) (iblk1 V c 6 t) (ix3 u n e)
      = R1 (V c main_arg0) (V c main_v5) (V c main_arg3) (V c main_v7_0) (V c main_v7_1) (V c main_v6) (V c main_arg9)
          (ix3 (bt t) (nt t n) e) := by
  refine (block_apply (iblk1 V c 0 t) (iblk1 V c 1 t) (iblk1 V c 2 t) (iblk1 V c 3 t) (iblk1 V c 4 t) (iblk1 V c 5 t)
    (iblk1 V c 6 t) (ix3 u n e)).trans ?_
  show lin (fun d => Ideal.div (∑ k : Fin 256, qrow (iblk1 V c 0 t) (iblk1 V c 1 t) (iblk1 V c 2 t) n k * (iblk1 V c 3 t : FVec Ideal S1x256x256 .f32) (ix3 (0 : Fin 1) k d))
      ((∑ k : Fin 256, qrow (iblk1 V c 0 t) (iblk1 V c 1 t) (iblk1 V c 2 t) n k) * (iblk1 V c 4 t : FVec Ideal S1x1x2048 .f32) (ix3 (0 : Fin 1) (0 : Fin 1) n) + eps))
      (iblk1 V c 5 t) (iblk1 V c 6 t) e
    = lin (fun d => attn (Q (V c main_arg0) (V c main_v5) (V c main_arg3)) (fun b k d => V c main_v7_0 (ix3 b k d))
        (fun b n => V c main_v7_1 (ix3 b (0 : Fin 1) n)) (bt t) (nt t n) d) (V c main_v6) (V c main_arg9) e
  unfold lin attn Q qrow lin
  simp only [read0 V c t, read1 V c t, read2 V c t, read3 V c t, read4 V c t, read5 V c t, read6 V c t]

/-- WHAT POINT t WRITES BACK is block t of R1 of the arrays the region finds. -/
theorem flushed_eq (c : Dev nD) (t : Fin cfg1.N) :
    (dat1 V c).flushed 7 t = ((cfg1.win 7).blk t).view.read (Elt Ideal)
      (R1 (V c main_arg0) (V c main_v5) (V c main_arg3) (V c main_v7_0) (V c main_v7_1) (V c main_v6) (V c main_arg9)) := by
  show (cfg1.win 7).cut (grid1.coords t) ((dat1 V c).after 7 t) = _
  rw [after1_7]
  unfold out1_7
  rw [View.canon_unit_zero hz3]
  simp only [View.ld_unit_zero (S := S1x2048x256) hz3, View.ld_unit_zero (S := S256x256) hz2, View.ld_unit_zero (S := S256) hz1,
    View.ld_unit_zero (S := S1x256x256) hz3, View.ld_unit_zero (S := S1x1x2048) hz3]
  funext j
  rw [View.read_apply]
  obtain ⟨-, -, -, -, -, -, -, -, -, -, -, -, -, -, -, e0, e1, e2⟩ := idx1 t
  have hj0 : (j 0).val < 1 := (j 0).isLt
  have hj1 : (j 1).val < 2048 := (j 1).isLt
  have hj2 : (j 2).val < 256 := (j 2).isLt
  have hemb : ((cfg1.win 7).blk t).view.emb j = ix3 (bt t) (nt t ⟨(j 1).val, hj1⟩) ⟨(j 2).val, hj2⟩ := by
    funext a; apply Fin.ext
    match a with
    | ⟨0, _⟩ => show win1_7.index t (0 : Fin 3) * 1 + 1 * (j 0).val = t.val / 2; omega
    | ⟨1, _⟩ => show win1_7.index t (1 : Fin 3) * 2048 + 1 * (j 1).val = t.val % 2 * 2048 + (j 1).val; omega
    | ⟨2, _⟩ => show win1_7.index t (2 : Fin 3) * 256 + 1 * (j 2).val = (j 2).val; omega
  have hj : j = ix3 (⟨(j 0).val, hj0⟩ : Fin 1) (⟨(j 1).val, hj1⟩ : Fin 2048) (⟨(j 2).val, hj2⟩ : Fin 256) := by
    funext a; apply Fin.ext
    match a with
    | ⟨0, _⟩ => rfl
    | ⟨1, _⟩ => rfl
    | ⟨2, _⟩ => rfl
  rw [hemb]
  exact (congrArg _ hj).trans (point_apply V c t _ _ _)

/-- Every index of the result array lies in the block of the point (its batch, its half). -/
theorem idx_onto : ∀ (q0 : Fin 8) (q1 : Fin 2), ∃ t : Fin cfg1.N, win1_7.index t = ![q0.val, q1.val, 0] :=
  (by decide +kernel : ∀ (q0 : Fin 8) (q1 : Fin 2), ∃ t : Fin grid1.N, win1_7.index t = ![q0.val, q1.val, 0])

theorem mem_blk (t : Fin cfg1.N) (i : S8x4096x256.Idx) :
    i ∈ ((cfg1.win 7).blk t).view.set ↔ ∀ a : Fin 3, win1_7.index t a * S1x2048x256.size a ≤ (i a).val ∧ (i a).val < win1_7.index t a * S1x2048x256.size a + S1x2048x256.size a := by
  show i ∈ ((View.whole main_v8).slice (win1_7.rect t)).set ↔ _
  rw [View.set_slice_whole, Rect.mem_set_unit]
  exact Iff.rfl

theorem cover (i : S8x4096x256.Idx) : ∃ t : Fin cfg1.N, (cfg1.win 7).flush t = true ∧ i ∈ ((cfg1.win 7).blk t).view.set := by
  have hi0 : (i 0).val < 8 := (i 0).isLt
  have hi1 : (i 1).val < 4096 := (i 1).isLt
  have hi2 : (i 2).val < 256 := (i 2).isLt
  obtain ⟨t, ht⟩ := idx_onto ⟨(i 0).val, hi0⟩ ⟨(i 1).val / 2048, by omega⟩
  have q0 : win1_7.index t (0 : Fin 3) = (i 0).val := congrFun ht 0
  have q1 : win1_7.index t (1 : Fin 3) = (i 1).val / 2048 := congrFun ht 1
  have q2 : win1_7.index t (2 : Fin 3) = 0 := congrFun ht 2
  refine ⟨t, flush1_7 t, ?_⟩
  rw [mem_blk]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 2048 ≤ (i 1).val ∧ (i 1).val < win1_7.index t (1 : Fin 3) * 2048 + 2048; omega
  | ⟨2, _⟩ => show win1_7.index t (2 : Fin 3) * 256 ≤ (i 2).val ∧ (i 2).val < win1_7.index t (2 : Fin 3) * 256 + 256; omega

/-- THE RESULT ARRAY after the region: R1 of the arrays the region finds. -/
theorem final (c : Dev nD) : (dat1 V c).arrAt 7 cfg1.N
    = R1 (V c main_arg0) (V c main_v5) (V c main_arg3) (V c main_v7_0) (V c main_v7_1) (V c main_v6) (V c main_arg9) :=
  (dat1 V c).arrAt_eq_of_cover 7 _ (fun t _ => flushed_eq V c t) cover

end Cert.KernelIdeal.KReg1

end
-- ==== Proof.KValue.lean ====
/-
  The idealized kernel program's result as the specification's function of the ten arguments.

  Before the regions the host flattens the key/value image to [8, 256, 4096] (position m = 64·h + w), stacks the key
  and value projections into one [512, 256] matrix (rows 0–255 Wk, rows 256–511 Wv) and their biases into one
  [512, 1] column, and narrows the float format of the three projection matrices (the identity over the extended reals).
  The first region then leaves  KV0, Z0  of those, the second region  R1  of the query, the query projection, KV0, Z0 and
  the output projection. Reading the stacked rows back —  P[b, k, m] = Σ_d Wk[k, d] · X[b, d, m] + bk[k]  is the key
  projection's row (the products commuted),  P[b, 256 + e, m]  the value projection's — turns KV0 and Z0 into the
  specification's KV and Z, and R1 of them is the specification's result G.
-/
import proofs.«123487_j59785944761114_2_alg».proof.Proof.KRun
import proofs.«123487_j59785944761114_2_alg».proof.Proof.KReg0
import proofs.«123487_j59785944761114_2_alg».proof.Proof.KReg1
import proofs.«123487_j59785944761114_2_alg».proof.Proof.Spec
import proofs.«123487_j59785944761114_2_alg».proof.Proof.LibKeepdims
import Idealize.ShloMosaic.Lib.StableHlo.Run
import Idealize.ShloMosaic.Lib.Pipeline.Value
import Idealize.ShloMosaic.Lib.ValueLayout

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem Idealize.ShloMosaic.StableHlo
open Cert.LinAttn (phi lin attn)
open Cert.KernelIdeal.KReg0 (P kvEnt zEnt KV0 Z0)
open Cert.KernelIdeal.KReg1 (R1)

/-! ## The arrays the host operations make -/

/-- The key/value image flattened to [8, 256, 4096]. -/
def xaOf (kv : FVec Ideal S8x256x64x64 .f32) : FVec Ideal S8x256x4096 .f32 :=
  fun i => shapeCast S8x256x4096 kv shapeCasts_S8x256x64x64_S8x256x4096 i

/-- The key and value projections stacked, in the narrower format. -/
def wkvOf (Wk Wv : FVec Ideal S256x256 .f32) : FVec Ideal S512x256 .bf16 :=
  truncf .bf16 (concatenate S512x256 0 [⟨S256x256, Wk⟩, ⟨S256x256, Wv⟩] concatenates_S256x256_S256x256_S512x256_d0) bitsLt_bf16_f32

/-- The key and value biases stacked into a column. -/
def bkvOf (bk bv : FVec Ideal S256 .f32) : FVec Ideal S512x1 .f32 :=
  fun i => shapeCast S512x1 (concatenate S512 0 [⟨S256, bk⟩, ⟨S256, bv⟩] concatenates_S256_S256_S512_d0) shapeCasts_S512_S512x1 i

/-- A projection matrix in the narrower format: the same extended reals. -/
def narrow (W : FVec Ideal S256x256 .f32) : FVec Ideal S256x256 .bf16 := truncf .bf16 W bitsLt_bf16_f32

theorem narrow_eq (W : FVec Ideal S256x256 .f32) : narrow W = W := rfl

section Run
variable (m : (ℓ : Loc nD τ sig) → Buf (Elt Ideal) ℓ) (ρ : Dev nD → PrngReg)

theorem V1_v0 (c : Dev nD) : V1 m ρ c main_v0 = xaOf (m ((c.tc : Thread nD τ).loc main_arg1)) := by
  show StableHlo.after hostOps0 (W0 m ρ c) (Proc.devRef .tc main_v0) = _
  after_results
  rfl
theorem V1_v2 (c : Dev nD) : V1 m ρ c main_v2 = wkvOf (m ((c.tc : Thread nD τ).loc main_arg4)) (m ((c.tc : Thread nD τ).loc main_arg6)) := by
  show StableHlo.after hostOps0 (W0 m ρ c) (Proc.devRef .tc main_v2) = _
  after_results
  rfl
theorem V1_v4 (c : Dev nD) : V1 m ρ c main_v4 = bkvOf (m ((c.tc : Thread nD τ).loc main_arg5)) (m ((c.tc : Thread nD τ).loc main_arg7)) := by
  show StableHlo.after hostOps0 (W0 m ρ c) (Proc.devRef .tc main_v4) = _
  after_results
  rfl
theorem V1_v5 (c : Dev nD) : V1 m ρ c main_v5 = narrow (m ((c.tc : Thread nD τ).loc main_arg2)) := by
  show StableHlo.after hostOps0 (W0 m ρ c) (Proc.devRef .tc main_v5) = _
  after_results
  rfl
theorem V1_v6 (c : Dev nD) : V1 m ρ c main_v6 = narrow (m ((c.tc : Thread nD τ).loc main_arg8)) := by
  show StableHlo.after hostOps0 (W0 m ρ c) (Proc.devRef .tc main_v6) = _
  after_results
  rfl
theorem V1_arg0 (c : Dev nD) : V1 m ρ c main_arg0 = m ((c.tc : Thread nD τ).loc main_arg0) := by
  show StableHlo.after hostOps0 (W0 m ρ c) (Proc.devRef .tc main_arg0) = _
  after_results
theorem V1_arg3 (c : Dev nD) : V1 m ρ c main_arg3 = m ((c.tc : Thread nD τ).loc main_arg3) := by
  show StableHlo.after hostOps0 (W0 m ρ c) (Proc.devRef .tc main_arg3) = _
  after_results
theorem V1_arg9 (c : Dev nD) : V1 m ρ c main_arg9 = m ((c.tc : Thread nD τ).loc main_arg9) := by
  show StableHlo.after hostOps0 (W0 m ρ c) (Proc.devRef .tc main_arg9) = _
  after_results

/-- The result buffer after both regions, in terms of the launch contents of the ten arguments. -/
theorem result_eq (c : Dev nD) :
    W3 m ρ c (Proc.devRef .tc main_v8)
      = R1 (m ((c.tc : Thread nD τ).loc main_arg0)) (narrow (m ((c.tc : Thread nD τ).loc main_arg2))) (m ((c.tc : Thread nD τ).loc main_arg3))
          (KV0 (xaOf (m ((c.tc : Thread nD τ).loc main_arg1))) (wkvOf (m ((c.tc : Thread nD τ).loc main_arg4)) (m ((c.tc : Thread nD τ).loc main_arg6))) (bkvOf (m ((c.tc : Thread nD τ).loc main_arg5)) (m ((c.tc : Thread nD τ).loc main_arg7))))
          (Z0 (xaOf (m ((c.tc : Thread nD τ).loc main_arg1))) (wkvOf (m ((c.tc : Thread nD τ).loc main_arg4)) (m ((c.tc : Thread nD τ).loc main_arg6))) (bkvOf (m ((c.tc : Thread nD τ).loc main_arg5)) (m ((c.tc : Thread nD τ).loc main_arg7))))
          (narrow (m ((c.tc : Thread nD τ).loc main_arg8))) (m ((c.tc : Thread nD τ).loc main_arg9)) := by
  refine (W3_arr m ρ c 7).trans ?_
  refine (Cert.KernelIdeal.KReg1.final (V2 m ρ) c).trans ?_
  have e0 : V2 m ρ c main_arg0 = m ((c.tc : Thread nD τ).loc main_arg0) := (W2_of_ne m ρ c main_arg0 (by decide)).trans (V1_arg0 m ρ c)
  have e1 : V2 m ρ c main_v5 = narrow (m ((c.tc : Thread nD τ).loc main_arg2)) := (W2_of_ne m ρ c main_v5 (by decide)).trans (V1_v5 m ρ c)
  have e2 : V2 m ρ c main_arg3 = m ((c.tc : Thread nD τ).loc main_arg3) := (W2_of_ne m ρ c main_arg3 (by decide)).trans (V1_arg3 m ρ c)
  have e3 : V2 m ρ c main_v7_0 = KV0 (V1 m ρ c main_v0) (V1 m ρ c main_v2) (V1 m ρ c main_v4) :=
    (W2_arr m ρ c 3).trans (Cert.KernelIdeal.KReg0.final3 (V1 m ρ) c)
  have e4 : V2 m ρ c main_v7_1 = Z0 (V1 m ρ c main_v0) (V1 m ρ c main_v2) (V1 m ρ c main_v4) :=
    (W2_arr m ρ c 4).trans (Cert.KernelIdeal.KReg0.final4 (V1 m ρ) c)
  have e5 : V2 m ρ c main_v6 = narrow (m ((c.tc : Thread nD τ).loc main_arg8)) := (W2_of_ne m ρ c main_v6 (by decide)).trans (V1_v6 m ρ c)
  have e6 : V2 m ρ c main_arg9 = m ((c.tc : Thread nD τ).loc main_arg9) := (W2_of_ne m ρ c main_arg9 (by decide)).trans (V1_arg9 m ρ c)
  rw [e0, e1, e2, e3, e4, e5, e6, V1_v0, V1_v2, V1_v4]

end Run

/-! ## The stacked rows read back -/

theorem xaOf_apply (kv : FVec Ideal S8x256x64x64 .f32) (b : Fin 8) (d : Fin 256) (mm : Fin 4096) :
    xaOf kv (ix3 b d mm) = Cert.LinAttn.X kv b d mm := by
  unfold xaOf Cert.LinAttn.X
  refine shapeCast_apply kv _ _ _ ?_
  rw [Shape.rowMajor_val_four, Shape.rowMajor_val_three]
  show ((b.val * 256 + d.val) * 64 + mm.val / 64) * 64 + mm.val % 64 = (b.val * 256 + d.val) * 4096 + mm.val
  omega

theorem wkv_key (Wk Wv : FVec Ideal S256x256 .f32) (k d : Fin 256) :
    wkvOf Wk Wv (ix2 (⟨k.val, by omega⟩ : Fin 512) d) = Wk (ix2 k d) := by
  show concatenate S512x256 (0 : Fin 2) [⟨S256x256, Wk⟩, ⟨S256x256, Wv⟩] concatenates_S256x256_S256x256_S512x256_d0
      (ix2 (⟨k.val, by omega⟩ : Fin 512) d) = Wk (ix2 k d)
  exact concatenate_pair_apply_left (0 : Fin 2) Wk Wv concatenates_S256x256_S256x256_S512x256_d0
    (ix2 (⟨k.val, by omega⟩ : Fin 512) d) rfl (ix2 k d)
    (fun b => match b with | ⟨0, _⟩ => rfl | ⟨1, _⟩ => rfl)

theorem wkv_val (Wk Wv : FVec Ideal S256x256 .f32) (e d : Fin 256) :
    wkvOf Wk Wv (ix2 (⟨256 + e.val, by omega⟩ : Fin 512) d) = Wv (ix2 e d) := by
  show concatenate S512x256 (0 : Fin 2) [⟨S256x256, Wk⟩, ⟨S256x256, Wv⟩] concatenates_S256x256_S256x256_S512x256_d0
      (ix2 (⟨256 + e.val, by omega⟩ : Fin 512) d) = Wv (ix2 e d)
  exact concatenate_pair_apply_right (0 : Fin 2) Wk Wv concatenates_S256x256_S256x256_S512x256_d0
    (ix2 (⟨256 + e.val, by omega⟩ : Fin 512) d) rfl rfl (ix2 e d)
    (fun b hb => match b, hb with | ⟨0, _⟩, hb => absurd rfl hb | ⟨1, _⟩, _ => rfl)
    (by show e.val + 256 = 256 + e.val; omega)

theorem bkv_key (bk bv : FVec Ideal S256 .f32) (k : Fin 256) :
    bkvOf bk bv (ix2 (⟨k.val, by omega⟩ : Fin 512) (0 : Fin 1)) = bk (ix1 k) := by
  unfold bkvOf
  refine (Cert.Keepdims.shapeCast_a_a1_apply _ _ (⟨k.val, by omega⟩ : Fin 512) (0 : Fin 1)).trans ?_
  exact concatenate_pair_apply_left (0 : Fin 1) bk bv _ (ix1 (⟨k.val, by omega⟩ : Fin 512)) rfl (ix1 k)
    (fun b => match b with | ⟨0, _⟩ => rfl)

theorem bkv_val (bk bv : FVec Ideal S256 .f32) (e : Fin 256) :
    bkvOf bk bv (ix2 (⟨256 + e.val, by omega⟩ : Fin 512) (0 : Fin 1)) = bv (ix1 e) := by
  unfold bkvOf
  refine (Cert.Keepdims.shapeCast_a_a1_apply _ _ (⟨256 + e.val, by omega⟩ : Fin 512) (0 : Fin 1)).trans ?_
  exact concatenate_pair_apply_right (0 : Fin 1) bk bv _ (ix1 (⟨256 + e.val, by omega⟩ : Fin 512)) rfl rfl (ix1 e)
    (fun b hb => match b, hb with | ⟨0, _⟩, hb => absurd rfl hb)
    (by show e.val + 256 = 256 + e.val; omega)

/-- A key row of the stacked pre-activations is the key projection's row of the flattened image. -/
theorem P_key (kv : FVec Ideal S8x256x64x64 .f32) (Wk Wv : FVec Ideal S256x256 .f32) (bk bv : FVec Ideal S256 .f32)
    (b : Fin 8) (k : Fin 256) (mm : Fin 4096) :
    P (xaOf kv) (wkvOf Wk Wv) (bkvOf bk bv) b ⟨k.val, by omega⟩ mm = lin (fun d => Cert.LinAttn.X kv b d mm) Wk bk k := by
  unfold P lin
  refine congrArg₂ (· + ·) (Finset.sum_congr rfl fun d _ => ?_) (bkv_key bk bv k)
  rw [wkv_key, xaOf_apply, mul_comm]

/-- A value row of the stacked pre-activations is the value projection's row. -/
theorem P_val (kv : FVec Ideal S8x256x64x64 .f32) (Wk Wv : FVec Ideal S256x256 .f32) (bk bv : FVec Ideal S256 .f32)
    (b : Fin 8) (e : Fin 256) (mm : Fin 4096) :
    P (xaOf kv) (wkvOf Wk Wv) (bkvOf bk bv) b ⟨256 + e.val, by omega⟩ mm = lin (fun d => Cert.LinAttn.X kv b d mm) Wv bv e := by
  unfold P lin
  refine congrArg₂ (· + ·) (Finset.sum_congr rfl fun d _ => ?_) (bkv_val bk bv e)
  rw [wkv_val, xaOf_apply, mul_comm]

/-- The second region's result of the first region's arrays is the specification's result. -/
theorem R1_eq_G (q : FVec Ideal S8x4096x256 .f32) (kv : FVec Ideal S8x256x64x64 .f32) (Wq : FVec Ideal S256x256 .f32)
    (bq : FVec Ideal S256 .f32) (Wk : FVec Ideal S256x256 .f32) (bk : FVec Ideal S256 .f32) (Wv : FVec Ideal S256x256 .f32)
    (bv : FVec Ideal S256 .f32) (Wo : FVec Ideal S256x256 .f32) (bo : FVec Ideal S256 .f32) :
    R1 q (narrow Wq) bq (KV0 (xaOf kv) (wkvOf Wk Wv) (bkvOf bk bv)) (Z0 (xaOf kv) (wkvOf Wk Wv) (bkvOf bk bv)) (narrow Wo) bo
      = Cert.LinAttn.G q kv Wq bq Wk bk Wv bv Wo bo := by
  have hKV : (fun (b : Fin 8) (k d : Fin 256) => KV0 (xaOf kv) (wkvOf Wk Wv) (bkvOf bk bv) (ix3 b k d))
      = Cert.LinAttn.KV kv Wk bk Wv bv := by
    funext b k d
    show kvEnt (xaOf kv) (wkvOf Wk Wv) (bkvOf bk bv) b k d = _
    unfold kvEnt Cert.LinAttn.KV Cert.LinAttn.K Cert.LinAttn.V
    simp only [P_key, P_val]
  have hZ : (fun (b : Fin 8) (n : Fin 4096) => Z0 (xaOf kv) (wkvOf Wk Wv) (bkvOf bk bv) (ix3 b (0 : Fin 1) n))
      = Cert.LinAttn.Z kv Wk bk := by
    funext b n
    show zEnt (xaOf kv) (wkvOf Wk Wv) (bkvOf bk bv) b n = _
    unfold zEnt Cert.LinAttn.Z Cert.LinAttn.K
    simp only [P_key]
  funext i
  unfold R1 Cert.LinAttn.G Cert.LinAttn.out
  rw [hKV, hZ, narrow_eq, narrow_eq]

/-! ## The run, read -/

/-- Every weakly fair execution of the idealized kernel program terminates with the result buffer at the specification's
    function of the arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v8)
          = Cert.LinAttn.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h c).1.trans (result_eq m ρ c)).trans (R1_eq_G _ _ _ _ _ _ _ _ _ _), (h c).2⟩)
    (Cert.KernelIdeal.KRun.run (F := Ideal) m ρ)

end Cert.KernelIdeal.KValue

end
-- ==== Proof.RefTerm.lean ====
/-
  The reference program's result as ONE pure term of its ten argument arrays: the operations of its straight line composed,
  with the outlined helpers (the elementwise selects and the elu) written in place. Stage by stage:

    kvflat a1        the key/value image flattened to [8, 256, 4096] and transposed to [8, 4096, 256]
    linear x W β     x · Wᵀ + β   (contracting the last axis of x with the last axis of W; β broadcast along the rows)
    elu x            x where x > 0, else 1 · expm1 (0 where x > 0, else x)
    feat x           elu x + 1
    Qm, Km, Vm       the three projections (Qm and Km through feat)
    KVm              Σ over tokens of Km ⊗ Vm, per batch          Zm    Σ over features of Km
    num              Qm · KVm, per batch                          den   (Σ over features of Qm) · Zm
    attn             num / (den + ε), den + ε formed on a unit last axis and broadcast
    out              linear attn Wo bo
-/
import proofs.«123487_j59785944761114_2_alg».proof.ReferenceIdeal

noncomputable section

namespace Cert.ReferenceIdeal.RefTerm

open Cert.ReferenceIdeal Idealize.ShloMosaic

variable {F : FTy → Type} [FloatOps F] [Facts]
open Facts₀ Facts

/-- A scalar word broadcast to the full [8, 4096, 256] shape. -/
def splat (w : BitVec 32) : FVec F S8x4096x256 .f32 :=
  broadcastInDim S8x4096x256 ![] bcast_S_S8x4096x256 (constant S_ .f32 w)

def kvflat (a1 : FVec F S8x256x64x64 .f32) : FVec F S8x4096x256 .f32 :=
  transpose S8x4096x256 [0, 2, 1] (fun i => shapeCast S8x256x4096 a1 shapeCasts_S8x256x64x64_S8x256x4096 i)
    transposes_S8x256x4096_S8x4096x256_0_2_1

def linear (x : FVec F S8x4096x256 .f32) (W : FVec F S256x256 .f32) (β : FVec F S256 .f32) : FVec F S8x4096x256 .f32 :=
  addf (Host.dotGeneral dot_S8x4096x256_S256x256_S8x4096x256_2_1_01_0_n_n none x W)
    (broadcastInDim S8x4096x256 ![0, 1, 2] bcast_S1x1x256_S8x4096x256_0_1_2
      (broadcastInDim S1x1x256 ![2] bcast_S256_S1x1x256_2 β))

def elu (x : FVec F S8x4096x256 .f32) : FVec F S8x4096x256 .f32 :=
  select (cmpf .ogt x (splat 0x00000000#32)) x
    (mulf (splat 0x3F800000#32)
      (Host.expm1 (select (cmpf .ogt x (splat 0x00000000#32))
        (broadcastInDim S8x4096x256 ![] bcast_S_S8x4096x256 (constant S_ .f32 0x00000000#32)) x)))

def feat (x : FVec F S8x4096x256 .f32) : FVec F S8x4096x256 .f32 := addf (elu x) (splat 0x3F800000#32)

def Qm (a0 : FVec F S8x4096x256 .f32) (a2 : FVec F S256x256 .f32) (a3 : FVec F S256 .f32) : FVec F S8x4096x256 .f32 :=
  feat (linear a0 a2 a3)
def Km (a1 : FVec F S8x256x64x64 .f32) (a4 : FVec F S256x256 .f32) (a5 : FVec F S256 .f32) : FVec F S8x4096x256 .f32 :=
  feat (linear (kvflat a1) a4 a5)
def Vm (a1 : FVec F S8x256x64x64 .f32) (a6 : FVec F S256x256 .f32) (a7 : FVec F S256 .f32) : FVec F S8x4096x256 .f32 :=
  linear (kvflat a1) a6 a7

def KVm (k v : FVec F S8x4096x256 .f32) : FVec F S8x256x256 .f32 :=
  Host.dotGeneral dot_S8x4096x256_S8x4096x256_S8x256x256_1_1_2_2_0_0 none k v

def rowsum (x : FVec F S8x4096x256 .f32) : FVec F S8x4096 .f32 :=
  Host.reduceAdd x (constant S_ .f32 0x00000000#32) reducesTo_S8x4096x256_S8x4096_d2 h_S_

def num (q : FVec F S8x4096x256 .f32) (kvm : FVec F S8x256x256 .f32) : FVec F S8x4096x256 .f32 :=
  Host.dotGeneral dot_S8x4096x256_S8x256x256_S8x4096x256_2_1_1_2_0_0 none q kvm

def denb (q k : FVec F S8x4096x256 .f32) : FVec F S8x4096x256 .f32 :=
  broadcastInDim S8x4096x256 ![0, 1, 2] bcast_S8x4096x1_S8x4096x256_0_1_2
    (addf (broadcastInDim S8x4096x1 ![0, 1] bcast_S8x4096_S8x4096x1_0_1 (mulf (rowsum q) (rowsum k)))
      (broadcastInDim S8x4096x1 ![] bcast_S_S8x4096x1 (constant S_ .f32 0x358637BD#32)))

def attn (q k v : FVec F S8x4096x256 .f32) : FVec F S8x4096x256 .f32 :=
  Host.divf (num q (KVm k v)) (denb q k)

/-- The reference's result as a term of its arguments (a0 … a9 in the order of @main's parameters). -/
def out (a0 : FVec F S8x4096x256 .f32) (a1 : FVec F S8x256x64x64 .f32) (a2 : FVec F S256x256 .f32) (a3 : FVec F S256 .f32)
    (a4 : FVec F S256x256 .f32) (a5 : FVec F S256 .f32) (a6 : FVec F S256x256 .f32) (a7 : FVec F S256 .f32)
    (a8 : FVec F S256x256 .f32) (a9 : FVec F S256 .f32) : FVec F S8x4096x256 .f32 :=
  linear (attn (Qm a0 a2 a3) (Km a1 a4 a5) (Vm a1 a6 a7)) a8 a9

end Cert.ReferenceIdeal.RefTerm

end
-- ==== Proof.RefRun.lean ====
/-
  The reference program's run. Its @main is a straight line of host operations once the outlined helpers are written
  in place: the elu (a comparison with zero, the exponent-minus-one of the input clamped above at zero through an
  elementwise select against a scalar zero, a product with one, a second select on the same comparison) is called on the
  query projection and on the key projection, and each call contributes its operations over that call's own buffers.
  Listed in order the line has 67 operations. Every weakly fair execution of it terminates; at the end each buffer holds
  the fold of the operations over the launch contents. Read at the result buffer that fold is the composed term
  `RefTerm.out` of the ten argument arrays, and at an argument buffer, which no operation writes, it is the argument.
-/
import proofs.«123487_j59785944761114_2_alg».proof.Proof.Gen.ReferenceIdeal
import proofs.«123487_j59785944761114_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two calls of the elu unfolded: the key/value image flattened and transposed
    (two operations) and the query projection's linear layer x · Wᵀ + β (four); the elu's fifteen over the first
    call's buffers; one added (three); the key projection's linear layer (four) and the elu's fifteen over the second
    call's buffers; one added (three); then the value projection's linear layer, the two contractions, the two row
    sums and their product, the epsilon added on a unit last axis and broadcast, the quotient, and the output layer. -/
abbrev ops : List (HloOp τ sig (Elt F)) :=
  [
    reshape main_arg1 main_v0 rfl shapeCasts_S8x256x64x64_S8x256x4096,
    unary main_v0 main_v1 ((transpose S8x4096x256 [0, 2, 1] · transposes_S8x256x4096_S8x4096x256_0_2_1) : (⟨S8x256x4096, .f32⟩ : BufTy).Contents (Elt F) → (⟨S8x4096x256, .f32⟩ : BufTy).Contents (Elt F)),
    binary main_arg0 main_arg2 main_v2 ((fun l r => Host.dotGeneral dot_S8x4096x256_S256x256_S8x4096x256_2_1_01_0_n_n none l r) : (⟨S8x4096x256, .f32⟩ : BufTy).Contents (Elt F) → (⟨S256x256, .f32⟩ : BufTy).Contents (Elt F) → (⟨S8x4096x256, .f32⟩ : BufTy).Contents (Elt F)),
    unary main_arg3 main_v3 (broadcastInDim S1x1x256 ![2] bcast_S256_S1x1x256_2 : (⟨S256, .f32⟩ : BufTy).Contents (Elt F) → (⟨S1x1x256, .f32⟩ : BufTy).Contents (Elt F)),
    unary main_v3 main_v4 (broadcastInDim S8x4096x256 ![0, 1, 2] bcast_S1x1x256_S8x4096x256_0_1_2 : (⟨S1x1x256, .f32⟩ : BufTy).Contents (Elt F) → (⟨S8x4096x256, .f32⟩ : BufTy).Contents (Elt F)),
    binary main_v2 main_v4 main_v5 (addf : (⟨S8x4096x256, .f32⟩ : BufTy).Contents (Elt F) → (⟨S8x4096x256, .f32⟩ : BufTy).Contents (Elt F) → (⟨S8x4096x256, .f32⟩ : BufTy).Contents (Elt F)),
    TRef.nullary main_call0.cst (constant S_ .f32 0x00000000#32),
    TRef.unary main_call0.cst main_call0.v0 (broadcastInDim S8x4096x256 ![] bcast_S_S8x4096x256),
    TRef.binary (.of main_v5) main_call0.v0 main_call0.v1 (cmpf .ogt),
    TRef.nullary main_call0.cst_0 (constant S_ .f32 0x00000000#32),
    TRef.unary main_call0.cst_0 main_call0.v2 (broadcastInDim S8x4096x256 ![] bcast_S_S8x4096x256),
    TRef.binary (.of main_v5) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S8x4096x256 ![] bcast_S_S8x4096x256),
    TRef.ternary main_call0.v3 main_call0.call0.v1 (.of main_v5) main_call0.call0.v2 select,
    TRef.unary main_call0.call0.v2 main_call0.v5 Host.expm1,
    TRef.nullary main_call0.cst_2 (constant S_ .f32 0x3F800000#32),
    TRef.unary main_call0.cst_2 main_call0.v6 (broadcastInDim S8x4096x256 ![] bcast_S_S8x4096x256),
    TRef.binary main_call0.v6 main_call0.v5 main_call0.v7 mulf,
    TRef.ternary main_call0.v1 (.of main_v5) main_call0.v7 main_call0.call1.v0 select,
    nullary main_cst (constant S_ .f32 0x3F800000#32),
    unary main_cst main_v7 (broadcastInDim S8x4096x256 ![] bcast_S_S8x4096x256 : (⟨S_, .f32⟩ : BufTy).Contents (Elt F) → (⟨S8x4096x256, .f32⟩ : BufTy).Contents (Elt F)),
    binary main_v6 main_v7 main_v8 (addf : (⟨S8x4096x256, .f32⟩ : BufTy).Contents (Elt F) → (⟨S8x4096x256, .f32⟩ : BufTy).Contents (Elt F) → (⟨S8x4096x256, .f32⟩ : BufTy).Contents (Elt F)),
    binary main_v1 main_arg4 main_v9 ((fun l r => Host.dotGeneral dot_S8x4096x256_S256x256_S8x4096x256_2_1_01_0_n_n none l r) : (⟨S8x4096x256, .f32⟩ : BufTy).Contents (Elt F) → (⟨S256x256, .f32⟩ : BufTy).Contents (Elt F) → (⟨S8x4096x256, .f32⟩ : BufTy).Contents (Elt F)),
    unary main_arg5 main_v10 (broadcastInDim S1x1x256 ![2] bcast_S256_S1x1x256_2 : (⟨S256, .f32⟩ : BufTy).Contents (Elt F) → (⟨S1x1x256, .f32⟩ : BufTy).Contents (Elt F)),
    unary main_v10 main_v11 (broadcastInDim S8x4096x256 ![0, 1, 2] bcast_S1x1x256_S8x4096x256_0_1_2 : (⟨S1x1x256, .f32⟩ : BufTy).Contents (Elt F) → (⟨S8x4096x256, .f32⟩ : BufTy).Contents (Elt F)),
    binary main_v9 main_v11 main_v12 (addf : (⟨S8x4096x256, .f32⟩ : BufTy).Contents (Elt F) → (⟨S8x4096x256, .f32⟩ : BufTy).Contents (Elt F) → (⟨S8x4096x256, .f32⟩ : BufTy).Contents (Elt F)),
    TRef.nullary main_call1.cst (constant S_ .f32 0x00000000#32),
    TRef.unary main_call1.cst main_call1.v0 (broadcastInDim S8x4096x256 ![] bcast_S_S8x4096x256),
    TRef.binary (.of main_v12) main_call1.v0 main_call1.v1 (cmpf .ogt),
    TRef.nullary main_call1.cst_0 (constant S_ .f32 0x00000000#32),
    TRef.unary main_call1.cst_0 main_call1.v2 (broadcastInDim S8x4096x256 ![] bcast_S_S8x4096x256),
    TRef.binary (.of main_v12) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S8x4096x256 ![] bcast_S_S8x4096x256),
    TRef.ternary main_call1.v3 main_call1.call0.v1 (.of main_v12) main_call1.call0.v2 select,
    TRef.unary main_call1.call0.v2 main_call1.v5 Host.expm1,
    TRef.nullary main_call1.cst_2 (constant S_ .f32 0x3F800000#32),
    TRef.unary main_call1.cst_2 main_call1.v6 (broadcastInDim S8x4096x256 ![] bcast_S_S8x4096x256),
    TRef.binary main_call1.v6 main_call1.v5 main_call1.v7 mulf,
    TRef.ternary main_call1.v1 (.of main_v12) main_call1.v7 main_call1.call1.v0 select,
    nullary main_cst_0 (constant S_ .f32 0x3F800000#32),
    unary main_cst_0 main_v14 (broadcastInDim S8x4096x256 ![] bcast_S_S8x4096x256 : (⟨S_, .f32⟩ : BufTy).Contents (Elt F) → (⟨S8x4096x256, .f32⟩ : BufTy).Contents (Elt F)),
    binary main_v13 main_v14 main_v15 (addf : (⟨S8x4096x256, .f32⟩ : BufTy).Contents (Elt F) → (⟨S8x4096x256, .f32⟩ : BufTy).Contents (Elt F) → (⟨S8x4096x256, .f32⟩ : BufTy).Contents (Elt F)),
    binary main_v1 main_arg6 main_v16 ((fun l r => Host.dotGeneral dot_S8x4096x256_S256x256_S8x4096x256_2_1_01_0_n_n none l r) : (⟨S8x4096x256, .f32⟩ : BufTy).Contents (Elt F) → (⟨S256x256, .f32⟩ : BufTy).Contents (Elt F) → (⟨S8x4096x256, .f32⟩ : BufTy).Contents (Elt F)),
    unary main_arg7 main_v17 (broadcastInDim S1x1x256 ![2] bcast_S256_S1x1x256_2 : (⟨S256, .f32⟩ : BufTy).Contents (Elt F) → (⟨S1x1x256, .f32⟩ : BufTy).Contents (Elt F)),
    unary main_v17 main_v18 (broadcastInDim S8x4096x256 ![0, 1, 2] bcast_S1x1x256_S8x4096x256_0_1_2 : (⟨S1x1x256, .f32⟩ : BufTy).Contents (Elt F) → (⟨S8x4096x256, .f32⟩ : BufTy).Contents (Elt F)),
    binary main_v16 main_v18 main_v19 (addf : (⟨S8x4096x256, .f32⟩ : BufTy).Contents (Elt F) → (⟨S8x4096x256, .f32⟩ : BufTy).Contents (Elt F) → (⟨S8x4096x256, .f32⟩ : BufTy).Contents (Elt F)),
    binary main_v15 main_v19 main_v20 ((fun l r => Host.dotGeneral dot_S8x4096x256_S8x4096x256_S8x256x256_1_1_2_2_0_0 none l r) : (⟨S8x4096x256, .f32⟩ : BufTy).Contents (Elt F) → (⟨S8x4096x256, .f32⟩ : BufTy).Contents (Elt F) → (⟨S8x256x256, .f32⟩ : BufTy).Contents (Elt F)),
    nullary main_cst_1 (constant S_ .f32 0x00000000#32),
    binary main_v15 main_cst_1 main_v21 ((fun x v => Host.reduceAdd x v reducesTo_S8x4096x256_S8x4096_d2 h_S_) : (⟨S8x4096x256, .f32⟩ : BufTy).Contents (Elt F) → (⟨S_, .f32⟩ : BufTy).Contents (Elt F) → (⟨S8x4096, .f32⟩ : BufTy).Contents (Elt F)),
    binary main_v8 main_v20 main_v22 ((fun l r => Host.dotGeneral dot_S8x4096x256_S8x256x256_S8x4096x256_2_1_1_2_0_0 none l r) : (⟨S8x4096x256, .f32⟩ : BufTy).Contents (Elt F) → (⟨S8x256x256, .f32⟩ : BufTy).Contents (Elt F) → (⟨S8x4096x256, .f32⟩ : BufTy).Contents (Elt F)),
    nullary main_cst_2 (constant S_ .f32 0x00000000#32),
    binary main_v8 main_cst_2 main_v23 ((fun x v => Host.reduceAdd x v reducesTo_S8x4096x256_S8x4096_d2 h_S_) : (⟨S8x4096x256, .f32⟩ : BufTy).Contents (Elt F) → (⟨S_, .f32⟩ : BufTy).Contents (Elt F) → (⟨S8x4096, .f32⟩ : BufTy).Contents (Elt F)),
    binary main_v23 main_v21 main_v24 (mulf : (⟨S8x4096, .f32⟩ : BufTy).Contents (Elt F) → (⟨S8x4096, .f32⟩ : BufTy).Contents (Elt F) → (⟨S8x4096, .f32⟩ : BufTy).Contents (Elt F)),
    unary main_v24 main_v25 (broadcastInDim S8x4096x1 ![0, 1] bcast_S8x4096_S8x4096x1_0_1 : (⟨S8x4096, .f32⟩ : BufTy).Contents (Elt F) → (⟨S8x4096x1, .f32⟩ : BufTy).Contents (Elt F)),
    nullary main_cst_3 (constant S_ .f32 0x358637BD#32),
    unary main_cst_3 main_v26 (broadcastInDim S8x4096x1 ![] bcast_S_S8x4096x1 : (⟨S_, .f32⟩ : BufTy).Contents (Elt F) → (⟨S8x4096x1, .f32⟩ : BufTy).Contents (Elt F)),
    binary main_v25 main_v26 main_v27 (addf : (⟨S8x4096x1, .f32⟩ : BufTy).Contents (Elt F) → (⟨S8x4096x1, .f32⟩ : BufTy).Contents (Elt F) → (⟨S8x4096x1, .f32⟩ : BufTy).Contents (Elt F)),
    unary main_v27 main_v28 (broadcastInDim S8x4096x256 ![0, 1, 2] bcast_S8x4096x1_S8x4096x256_0_1_2 : (⟨S8x4096x1, .f32⟩ : BufTy).Contents (Elt F) → (⟨S8x4096x256, .f32⟩ : BufTy).Contents (Elt F)),
    binary main_v22 main_v28 main_v29 (Host.divf : (⟨S8x4096x256, .f32⟩ : BufTy).Contents (Elt F) → (⟨S8x4096x256, .f32⟩ : BufTy).Contents (Elt F) → (⟨S8x4096x256, .f32⟩ : BufTy).Contents (Elt F)),
    binary main_v29 main_arg8 main_v30 ((fun l r => Host.dotGeneral dot_S8x4096x256_S256x256_S8x4096x256_2_1_01_0_n_n none l r) : (⟨S8x4096x256, .f32⟩ : BufTy).Contents (Elt F) → (⟨S256x256, .f32⟩ : BufTy).Contents (Elt F) → (⟨S8x4096x256, .f32⟩ : BufTy).Contents (Elt F)),
    unary main_arg9 main_v31 (broadcastInDim S1x1x256 ![2] bcast_S256_S1x1x256_2 : (⟨S256, .f32⟩ : BufTy).Contents (Elt F) → (⟨S1x1x256, .f32⟩ : BufTy).Contents (Elt F)),
    unary main_v31 main_v32 (broadcastInDim S8x4096x256 ![0, 1, 2] bcast_S1x1x256_S8x4096x256_0_1_2 : (⟨S1x1x256, .f32⟩ : BufTy).Contents (Elt F) → (⟨S8x4096x256, .f32⟩ : BufTy).Contents (Elt F)),
    binary main_v30 main_v32 main_v33 (addf : (⟨S8x4096x256, .f32⟩ : BufTy).Contents (Elt F) → (⟨S8x4096x256, .f32⟩ : BufTy).Contents (Elt F) → (⟨S8x4096x256, .f32⟩ : BufTy).Contents (Elt F)) ]

-- sixty-seven binds re-associated: the rewrite under the chain recurses once per statement
set_option maxRecDepth 8192 in
set_option maxHeartbeats 4000000 in
/-- @main is that straight line: the helpers' definitions unfolded at their calls, both sides are one chain of
    steps once sequencing is reassociated. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    reshape_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., nullary_bufs_sub .., unary_bufs_sub .., binary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub .., nullary_bufs_sub .., unary_bufs_sub .., binary_bufs_sub .., binary_bufs_sub .., unary_bufs_sub ..,
    unary_bufs_sub .., binary_bufs_sub .., binary_bufs_sub .., nullary_bufs_sub .., binary_bufs_sub .., binary_bufs_sub ..,
    nullary_bufs_sub .., binary_bufs_sub .., binary_bufs_sub .., unary_bufs_sub .., nullary_bufs_sub .., unary_bufs_sub ..,
    binary_bufs_sub .., unary_bufs_sub .., binary_bufs_sub .., binary_bufs_sub .., unary_bufs_sub .., unary_bufs_sub ..,
    binary_bufs_sub ..⟩

/-- The query side's input: the key/value image flattened and transposed, and the query projection's linear layer. -/
abbrev opsA : List (HloOp τ sig (Elt F)) :=
  [
    reshape main_arg1 main_v0 rfl shapeCasts_S8x256x64x64_S8x256x4096,
    unary main_v0 main_v1 ((transpose S8x4096x256 [0, 2, 1] · transposes_S8x256x4096_S8x4096x256_0_2_1) : (⟨S8x256x4096, .f32⟩ : BufTy).Contents (Elt F) → (⟨S8x4096x256, .f32⟩ : BufTy).Contents (Elt F)),
    binary main_arg0 main_arg2 main_v2 ((fun l r => Host.dotGeneral dot_S8x4096x256_S256x256_S8x4096x256_2_1_01_0_n_n none l r) : (⟨S8x4096x256, .f32⟩ : BufTy).Contents (Elt F) → (⟨S256x256, .f32⟩ : BufTy).Contents (Elt F) → (⟨S8x4096x256, .f32⟩ : BufTy).Contents (Elt F)),
    unary main_arg3 main_v3 (broadcastInDim S1x1x256 ![2] bcast_S256_S1x1x256_2 : (⟨S256, .f32⟩ : BufTy).Contents (Elt F) → (⟨S1x1x256, .f32⟩ : BufTy).Contents (Elt F)),
    unary main_v3 main_v4 (broadcastInDim S8x4096x256 ![0, 1, 2] bcast_S1x1x256_S8x4096x256_0_1_2 : (⟨S1x1x256, .f32⟩ : BufTy).Contents (Elt F) → (⟨S8x4096x256, .f32⟩ : BufTy).Contents (Elt F)),
    binary main_v2 main_v4 main_v5 (addf : (⟨S8x4096x256, .f32⟩ : BufTy).Contents (Elt F) → (⟨S8x4096x256, .f32⟩ : BufTy).Contents (Elt F) → (⟨S8x4096x256, .f32⟩ : BufTy).Contents (Elt F)) ]

/-- The elu over the first call's buffers, read from the query projection's linear layer. -/
abbrev opsB : List (HloOp τ sig (Elt F)) :=
  [
    TRef.nullary main_call0.cst (constant S_ .f32 0x00000000#32),
    TRef.unary main_call0.cst main_call0.v0 (broadcastInDim S8x4096x256 ![] bcast_S_S8x4096x256),
    TRef.binary (.of main_v5) main_call0.v0 main_call0.v1 (cmpf .ogt),
    TRef.nullary main_call0.cst_0 (constant S_ .f32 0x00000000#32),
    TRef.unary main_call0.cst_0 main_call0.v2 (broadcastInDim S8x4096x256 ![] bcast_S_S8x4096x256),
    TRef.binary (.of main_v5) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S8x4096x256 ![] bcast_S_S8x4096x256),
    TRef.ternary main_call0.v3 main_call0.call0.v1 (.of main_v5) main_call0.call0.v2 select,
    TRef.unary main_call0.call0.v2 main_call0.v5 Host.expm1,
    TRef.nullary main_call0.cst_2 (constant S_ .f32 0x3F800000#32),
    TRef.unary main_call0.cst_2 main_call0.v6 (broadcastInDim S8x4096x256 ![] bcast_S_S8x4096x256),
    TRef.binary main_call0.v6 main_call0.v5 main_call0.v7 mulf,
    TRef.ternary main_call0.v1 (.of main_v5) main_call0.v7 main_call0.call1.v0 select ]

/-- One added to the first elu; the key projection's linear layer. -/
abbrev opsC : List (HloOp τ sig (Elt F)) :=
  [
    nullary main_cst (constant S_ .f32 0x3F800000#32),
    unary main_cst main_v7 (broadcastInDim S8x4096x256 ![] bcast_S_S8x4096x256 : (⟨S_, .f32⟩ : BufTy).Contents (Elt F) → (⟨S8x4096x256, .f32⟩ : BufTy).Contents (Elt F)),
    binary main_v6 main_v7 main_v8 (addf : (⟨S8x4096x256, .f32⟩ : BufTy).Contents (Elt F) → (⟨S8x4096x256, .f32⟩ : BufTy).Contents (Elt F) → (⟨S8x4096x256, .f32⟩ : BufTy).Contents (Elt F)),
    binary main_v1 main_arg4 main_v9 ((fun l r => Host.dotGeneral dot_S8x4096x256_S256x256_S8x4096x256_2_1_01_0_n_n none l r) : (⟨S8x4096x256, .f32⟩ : BufTy).Contents (Elt F) → (⟨S256x256, .f32⟩ : BufTy).Contents (Elt F) → (⟨S8x4096x256, .f32⟩ : BufTy).Contents (Elt F)),
    unary main_arg5 main_v10 (broadcastInDim S1x1x256 ![2] bcast_S256_S1x1x256_2 : (⟨S256, .f32⟩ : BufTy).Contents (Elt F) → (⟨S1x1x256, .f32⟩ : BufTy).Contents (Elt F)),
    unary main_v10 main_v11 (broadcastInDim S8x4096x256 ![0, 1, 2] bcast_S1x1x256_S8x4096x256_0_1_2 : (⟨S1x1x256, .f32⟩ : BufTy).Contents (Elt F) → (⟨S8x4096x256, .f32⟩ : BufTy).Contents (Elt F)),
    binary main_v9 main_v11 main_v12 (addf : (⟨S8x4096x256, .f32⟩ : BufTy).Contents (Elt F) → (⟨S8x4096x256, .f32⟩ : BufTy).Contents (Elt F) → (⟨S8x4096x256, .f32⟩ : BufTy).Contents (Elt F)) ]

/-- The elu over the second call's buffers, read from the key projection's linear layer. -/
abbrev opsD : List (HloOp τ sig (Elt F)) :=
  [
    TRef.nullary main_call1.cst (constant S_ .f32 0x00000000#32),
    TRef.unary main_call1.cst main_call1.v0 (broadcastInDim S8x4096x256 ![] bcast_S_S8x4096x256),
    TRef.binary (.of main_v12) main_call1.v0 main_call1.v1 (cmpf .ogt),
    TRef.nullary main_call1.cst_0 (constant S_ .f32 0x00000000#32),
    TRef.unary main_call1.cst_0 main_call1.v2 (broadcastInDim S8x4096x256 ![] bcast_S_S8x4096x256),
    TRef.binary (.of main_v12) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S8x4096x256 ![] bcast_S_S8x4096x256),
    TRef.ternary main_call1.v3 main_call1.call0.v1 (.of main_v12) main_call1.call0.v2 select,
    TRef.unary main_call1.call0.v2 main_call1.v5 Host.expm1,
    TRef.nullary main_call1.cst_2 (constant S_ .f32 0x3F800000#32),
    TRef.unary main_call1.cst_2 main_call1.v6 (broadcastInDim S8x4096x256 ![] bcast_S_S8x4096x256),
    TRef.binary main_call1.v6 main_call1.v5 main_call1.v7 mulf,
    TRef.ternary main_call1.v1 (.of main_v12) main_call1.v7 main_call1.call1.v0 select ]

/-- One added to the second elu; the value projection; the contractions, the row sums, the normaliser, the quotient
    and the output layer. -/
abbrev opsE : List (HloOp τ sig (Elt F)) :=
  [
    nullary main_cst_0 (constant S_ .f32 0x3F800000#32),
    unary main_cst_0 main_v14 (broadcastInDim S8x4096x256 ![] bcast_S_S8x4096x256 : (⟨S_, .f32⟩ : BufTy).Contents (Elt F) → (⟨S8x4096x256, .f32⟩ : BufTy).Contents (Elt F)),
    binary main_v13 main_v14 main_v15 (addf : (⟨S8x4096x256, .f32⟩ : BufTy).Contents (Elt F) → (⟨S8x4096x256, .f32⟩ : BufTy).Contents (Elt F) → (⟨S8x4096x256, .f32⟩ : BufTy).Contents (Elt F)),
    binary main_v1 main_arg6 main_v16 ((fun l r => Host.dotGeneral dot_S8x4096x256_S256x256_S8x4096x256_2_1_01_0_n_n none l r) : (⟨S8x4096x256, .f32⟩ : BufTy).Contents (Elt F) → (⟨S256x256, .f32⟩ : BufTy).Contents (Elt F) → (⟨S8x4096x256, .f32⟩ : BufTy).Contents (Elt F)),
    unary main_arg7 main_v17 (broadcastInDim S1x1x256 ![2] bcast_S256_S1x1x256_2 : (⟨S256, .f32⟩ : BufTy).Contents (Elt F) → (⟨S1x1x256, .f32⟩ : BufTy).Contents (Elt F)),
    unary main_v17 main_v18 (broadcastInDim S8x4096x256 ![0, 1, 2] bcast_S1x1x256_S8x4096x256_0_1_2 : (⟨S1x1x256, .f32⟩ : BufTy).Contents (Elt F) → (⟨S8x4096x256, .f32⟩ : BufTy).Contents (Elt F)),
    binary main_v16 main_v18 main_v19 (addf : (⟨S8x4096x256, .f32⟩ : BufTy).Contents (Elt F) → (⟨S8x4096x256, .f32⟩ : BufTy).Contents (Elt F) → (⟨S8x4096x256, .f32⟩ : BufTy).Contents (Elt F)),
    binary main_v15 main_v19 main_v20 ((fun l r => Host.dotGeneral dot_S8x4096x256_S8x4096x256_S8x256x256_1_1_2_2_0_0 none l r) : (⟨S8x4096x256, .f32⟩ : BufTy).Contents (Elt F) → (⟨S8x4096x256, .f32⟩ : BufTy).Contents (Elt F) → (⟨S8x256x256, .f32⟩ : BufTy).Contents (Elt F)),
    nullary main_cst_1 (constant S_ .f32 0x00000000#32),
    binary main_v15 main_cst_1 main_v21 ((fun x v => Host.reduceAdd x v reducesTo_S8x4096x256_S8x4096_d2 h_S_) : (⟨S8x4096x256, .f32⟩ : BufTy).Contents (Elt F) → (⟨S_, .f32⟩ : BufTy).Contents (Elt F) → (⟨S8x4096, .f32⟩ : BufTy).Contents (Elt F)),
    binary main_v8 main_v20 main_v22 ((fun l r => Host.dotGeneral dot_S8x4096x256_S8x256x256_S8x4096x256_2_1_1_2_0_0 none l r) : (⟨S8x4096x256, .f32⟩ : BufTy).Contents (Elt F) → (⟨S8x256x256, .f32⟩ : BufTy).Contents (Elt F) → (⟨S8x4096x256, .f32⟩ : BufTy).Contents (Elt F)),
    nullary main_cst_2 (constant S_ .f32 0x00000000#32),
    binary main_v8 main_cst_2 main_v23 ((fun x v => Host.reduceAdd x v reducesTo_S8x4096x256_S8x4096_d2 h_S_) : (⟨S8x4096x256, .f32⟩ : BufTy).Contents (Elt F) → (⟨S_, .f32⟩ : BufTy).Contents (Elt F) → (⟨S8x4096, .f32⟩ : BufTy).Contents (Elt F)),
    binary main_v23 main_v21 main_v24 (mulf : (⟨S8x4096, .f32⟩ : BufTy).Contents (Elt F) → (⟨S8x4096, .f32⟩ : BufTy).Contents (Elt F) → (⟨S8x4096, .f32⟩ : BufTy).Contents (Elt F)),
    unary main_v24 main_v25 (broadcastInDim S8x4096x1 ![0, 1] bcast_S8x4096_S8x4096x1_0_1 : (⟨S8x4096, .f32⟩ : BufTy).Contents (Elt F) → (⟨S8x4096x1, .f32⟩ : BufTy).Contents (Elt F)),
    nullary main_cst_3 (constant S_ .f32 0x358637BD#32),
    unary main_cst_3 main_v26 (broadcastInDim S8x4096x1 ![] bcast_S_S8x4096x1 : (⟨S_, .f32⟩ : BufTy).Contents (Elt F) → (⟨S8x4096x1, .f32⟩ : BufTy).Contents (Elt F)),
    binary main_v25 main_v26 main_v27 (addf : (⟨S8x4096x1, .f32⟩ : BufTy).Contents (Elt F) → (⟨S8x4096x1, .f32⟩ : BufTy).Contents (Elt F) → (⟨S8x4096x1, .f32⟩ : BufTy).Contents (Elt F)),
    unary main_v27 main_v28 (broadcastInDim S8x4096x256 ![0, 1, 2] bcast_S8x4096x1_S8x4096x256_0_1_2 : (⟨S8x4096x1, .f32⟩ : BufTy).Contents (Elt F) → (⟨S8x4096x256, .f32⟩ : BufTy).Contents (Elt F)),
    binary main_v22 main_v28 main_v29 (Host.divf : (⟨S8x4096x256, .f32⟩ : BufTy).Contents (Elt F) → (⟨S8x4096x256, .f32⟩ : BufTy).Contents (Elt F) → (⟨S8x4096x256, .f32⟩ : BufTy).Contents (Elt F)),
    binary main_v29 main_arg8 main_v30 ((fun l r => Host.dotGeneral dot_S8x4096x256_S256x256_S8x4096x256_2_1_01_0_n_n none l r) : (⟨S8x4096x256, .f32⟩ : BufTy).Contents (Elt F) → (⟨S256x256, .f32⟩ : BufTy).Contents (Elt F) → (⟨S8x4096x256, .f32⟩ : BufTy).Contents (Elt F)),
    unary main_arg9 main_v31 (broadcastInDim S1x1x256 ![2] bcast_S256_S1x1x256_2 : (⟨S256, .f32⟩ : BufTy).Contents (Elt F) → (⟨S1x1x256, .f32⟩ : BufTy).Contents (Elt F)),
    unary main_v31 main_v32 (broadcastInDim S8x4096x256 ![0, 1, 2] bcast_S1x1x256_S8x4096x256_0_1_2 : (⟨S1x1x256, .f32⟩ : BufTy).Contents (Elt F) → (⟨S8x4096x256, .f32⟩ : BufTy).Contents (Elt F)),
    binary main_v30 main_v32 main_v33 (addf : (⟨S8x4096x256, .f32⟩ : BufTy).Contents (Elt F) → (⟨S8x4096x256, .f32⟩ : BufTy).Contents (Elt F) → (⟨S8x4096x256, .f32⟩ : BufTy).Contents (Elt F)) ]

/-- The fold over the whole line is the fold over its five stretches, one after the other. -/
theorem after_ops (V : Valuation τ sig (Elt F)) :
    after ops V = after opsE (after opsD (after opsC (after opsB (after opsA V)))) := by
  simp only [after_cons, after_nil]

set_option maxRecDepth 8192 in
set_option maxHeartbeats 4000000 in
/-- The fold read at the result buffer is the composed term. Each operation's result at its own buffer is its
    function's value at its operands' contents, and at any other buffer what was there; the line is read stretch by
    stretch from the last, the contents entering a stretch kept as a variable while the stretch is read, so that a
    buffer is carried only across the operations of the stretches between its writer and its readers. -/
theorem out_eq (V : Valuation τ sig (Elt F)) :
    after ops V (main_v33 : DevRef τ sig) = RefTerm.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  rw [after_ops]
  generalize h1 : after opsA V = W1
  generalize h2 : after opsB W1 = W2
  generalize h3 : after opsC W2 = W3
  generalize h4 : after opsD W3 = W4
  after_results_simp
  subst h4
  after_results_simp
  subst h3
  after_results_simp
  subst h2
  after_results_simp
  subst h1
  after_results_simp
  rfl

set_option maxRecDepth 8192 in
set_option maxHeartbeats 2000000 in
/-- No operation writes argument 0's buffer. -/
theorem arg0_eq (V : Valuation τ sig (Elt F)) :
    after ops V (main_arg0 : DevRef τ sig) = V (main_arg0 : DevRef τ sig) := by
  after_results_simp

set_option maxRecDepth 8192 in
set_option maxHeartbeats 2000000 in
/-- No operation writes argument 1's buffer. -/
theorem arg1_eq (V : Valuation τ sig (Elt F)) :
    after ops V (main_arg1 : DevRef τ sig) = V (main_arg1 : DevRef τ sig) := by
  after_results_simp

set_option maxRecDepth 8192 in
set_option maxHeartbeats 2000000 in
/-- No operation writes argument 2's buffer. -/
theorem arg2_eq (V : Valuation τ sig (Elt F)) :
    after ops V (main_arg2 : DevRef τ sig) = V (main_arg2 : DevRef τ sig) := by
  after_results_simp

set_option maxRecDepth 8192 in
set_option maxHeartbeats 2000000 in
/-- No operation writes argument 3's buffer. -/
theorem arg3_eq (V : Valuation τ sig (Elt F)) :
    after ops V (main_arg3 : DevRef τ sig) = V (main_arg3 : DevRef τ sig) := by
  after_results_simp

set_option maxRecDepth 8192 in
set_option maxHeartbeats 2000000 in
/-- No operation writes argument 4's buffer. -/
theorem arg4_eq (V : Valuation τ sig (Elt F)) :
    after ops V (main_arg4 : DevRef τ sig) = V (main_arg4 : DevRef τ sig) := by
  after_results_simp

set_option maxRecDepth 8192 in
set_option maxHeartbeats 2000000 in
/-- No operation writes argument 5's buffer. -/
theorem arg5_eq (V : Valuation τ sig (Elt F)) :
    after ops V (main_arg5 : DevRef τ sig) = V (main_arg5 : DevRef τ sig) := by
  after_results_simp

set_option maxRecDepth 8192 in
set_option maxHeartbeats 2000000 in
/-- No operation writes argument 6's buffer. -/
theorem arg6_eq (V : Valuation τ sig (Elt F)) :
    after ops V (main_arg6 : DevRef τ sig) = V (main_arg6 : DevRef τ sig) := by
  after_results_simp

set_option maxRecDepth 8192 in
set_option maxHeartbeats 2000000 in
/-- No operation writes argument 7's buffer. -/
theorem arg7_eq (V : Valuation τ sig (Elt F)) :
    after ops V (main_arg7 : DevRef τ sig) = V (main_arg7 : DevRef τ sig) := by
  after_results_simp

set_option maxRecDepth 8192 in
set_option maxHeartbeats 2000000 in
/-- No operation writes argument 8's buffer. -/
theorem arg8_eq (V : Valuation τ sig (Elt F)) :
    after ops V (main_arg8 : DevRef τ sig) = V (main_arg8 : DevRef τ sig) := by
  after_results_simp

set_option maxRecDepth 8192 in
set_option maxHeartbeats 2000000 in
/-- No operation writes argument 9's buffer. -/
theorem arg9_eq (V : Valuation τ sig (Elt F)) :
    after ops V (main_arg9 : DevRef τ sig) = V (main_arg9 : DevRef τ sig) := by
  after_results_simp

/-- On every device, for any float values, from any memory with zero counters: every weakly fair execution of @main
    terminates with the result buffer at the composed term of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33)
          = RefTerm.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v33).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _),
      (h c main_arg9).trans (arg9_eq _)⟩)
    (run_seq scopedRefs_eq scopedSems_eq defs main (fun _ => ops) main_eq (fun _ => ops_sub) m ρ)

end Cert.ReferenceIdeal.RefRun

end
-- ==== Proof.LibHostBatchDot.lean ====
/-
  The host's `dot_general` and one-axis `reduce … add` at the ideal values, read at an index given by coordinates,
  for three arrangements of a rank-3 operand that the library's stack lemmas (Lib/StackMember.lean:
  `dotGeneral_stack_apply`, batch axis 0, contracting the left operand's last axis with the right one's middle axis)
  do not cover:

  • `dotGeneral_rows_apply`: a stack of rows [G, m, k] against a matrix [n, k], contracting both LAST axes, no batch
    axis — every row of every member times the transposed matrix (a linear layer `x · Wᵀ` over leading axes);
  • `dotGeneral_stackT_apply`: two stacks [G, k, m] and [G, k, n], batch axis 0, contracting both MIDDLE axes — per
    member, the transposed first matrix times the second (`Aᵀ · B`, a sum of outer products over the rows);
  • `hostReduceAdd_last3_apply`: the host's sum over the LAST axis of a rank-3 array, at (a, b): the initial value
    plus the sum over the last coordinate.

  Each is the library's reading (`Ideal.dotGeneral_apply`, `Ideal.hostReduceAdd_single`) with the contraction index
  re-indexed by its one coordinate (`ValueIdx.contrEquiv1`) and the operand indices written `ix2` / `ix3`, at any
  extents. `w` is the dimension record's well-formedness, which a program states.
-/
import Idealize.ShloMosaic.PureOps.Ideal.Laws
import Idealize.ShloMosaic.Lib.ValueIdx

namespace Cert.Lib.HostBatchDot

open Idealize.ShloMosaic Idealize.ShloMosaic.ValueIdx

variable {G m n k : Nat} {φ₁ φ₂ : FTy}

/-- `dot_general` of [G, m, k] with [n, k], contracting axes 2 and 1, no batch axes, result [G, m, n]: at (g, a, b) the
    sum over the contracted coordinate of the products of row (g, a) with row b. At the ideal values. -/
theorem dotGeneral_rows_apply
    (w : DotDims.WF ⟨3, ![G, m, k]⟩ ⟨2, ![n, k]⟩ ⟨3, ![G, m, n]⟩ [2] [1] [0, 1] [0] [] [])
    (prec : Option ContractPrecision) (A : FVec Ideal ⟨3, ![G, m, k]⟩ φ₁) (B : FVec Ideal ⟨2, ![n, k]⟩ φ₂)
    (g : Fin G) (a : Fin m) (b : Fin n) :
    Host.dotGeneral (⟨[2], [1], [0, 1], [0], [], [], w⟩ : DotDims _ _ _) prec A B (ix3 g a b)
      = ∑ c : Fin k, A (ix3 g a c) * B (ix2 b c) := by
  show FloatOps.dotGeneral _ prec _ A B (ix3 g a b) = _
  rw [Ideal.dotGeneral_apply,
    ← Equiv.sum_comp (contrEquiv1 (⟨[2], [1], [0, 1], [0], [], [], w⟩ : DotDims _ _ _) k rfl rfl).symm]
  refine Finset.sum_congr rfl fun c _ => ?_
  have c3 := contrEquiv1_symm_val
    (⟨[2], [1], [0, 1], [0], [], [], w⟩ : DotDims ⟨3, ![G, m, k]⟩ ⟨2, ![n, k]⟩ ⟨3, ![G, m, n]⟩) k rfl rfl c
  have l3 : (⟨[2], [1], [0, 1], [0], [], [], w⟩ : DotDims ⟨3, ![G, m, k]⟩ ⟨2, ![n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r2 : (⟨[2], [1], [0, 1], [0], [], [], w⟩ : DotDims ⟨3, ![G, m, k]⟩ ⟨2, ![n, k]⟩ ⟨3, ![G, m, n]⟩).rhsIdx (ix3 g a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c3
  rw [l3, r2]

/-- `dot_general` of [G, k, m] with [G, k, n], batch axes 0 and 0, contracting axes 1 and 1, result [G, m, n]: at
    (g, a, b) the sum over the contracted coordinate c of A[g, c, a] · B[g, c, b]. At the ideal values. -/
theorem dotGeneral_stackT_apply
    (w : DotDims.WF ⟨3, ![G, k, m]⟩ ⟨3, ![G, k, n]⟩ ⟨3, ![G, m, n]⟩ [1] [1] [2] [2] [0] [0])
    (prec : Option ContractPrecision) (A : FVec Ideal ⟨3, ![G, k, m]⟩ φ₁) (B : FVec Ideal ⟨3, ![G, k, n]⟩ φ₂)
    (g : Fin G) (a : Fin m) (b : Fin n) :
    Host.dotGeneral (⟨[1], [1], [2], [2], [0], [0], w⟩ : DotDims _ _ _) prec A B (ix3 g a b)
      = ∑ c : Fin k, A (ix3 g c a) * B (ix3 g c b) := by
  show FloatOps.dotGeneral _ prec _ A B (ix3 g a b) = _
  rw [Ideal.dotGeneral_apply,
    ← Equiv.sum_comp (contrEquiv1 (⟨[1], [1], [2], [2], [0], [0], w⟩ : DotDims _ _ _) k rfl rfl).symm]
  refine Finset.sum_congr rfl fun c _ => ?_
  have c3 := contrEquiv1_symm_val
    (⟨[1], [1], [2], [2], [0], [0], w⟩ : DotDims ⟨3, ![G, k, m]⟩ ⟨3, ![G, k, n]⟩ ⟨3, ![G, m, n]⟩) k rfl rfl c
  have l3 : (⟨[1], [1], [2], [2], [0], [0], w⟩ : DotDims ⟨3, ![G, k, m]⟩ ⟨3, ![G, k, n]⟩ ⟨3, ![G, m, n]⟩).lhsIdx (ix3 g a b)
      ((contrEquiv1 _ k rfl rfl).symm c) = ix3 g c a := by
    funext ax; apply Fin.ext
    match ax with
    | ⟨0, _⟩ => simp [DotDims.lhsIdx]; rfl
    | ⟨1, _⟩ => simp [DotDims.lhsIdx]; exact c3
    | ⟨2, _⟩ => simp [DotDims.lhsIdx]; rfl
  have r3 : (⟨[1], [1], [2], [2], [0], [0], w⟩ : DotDims ⟨3, ![G, k, m]⟩ ⟨3, ![G, k, n]⟩ ⟨3, ![G, m, n]⟩).rhsIdx (ix3 g a b)
      ((contrEquiv1 _ k rfl rfl).symm c) = ix3 g c b := by
    funext ax; apply Fin.ext
    match ax with
    | ⟨0, _⟩ => simp [DotDims.rhsIdx]; rfl
    | ⟨1, _⟩ => simp [DotDims.rhsIdx]; exact c3
    | ⟨2, _⟩ => simp [DotDims.rhsIdx]; rfl
  rw [l3, r3]

/-- The host's `reduce … add` over the last axis of a rank-3 array, at (a, b): the initial value's element plus the sum
    over the last coordinate. At the ideal values. -/
theorem hostReduceAdd_last3_apply {n0 n1 n2 : Nat} {φ : FTy} {u : Shape}
    (x : FVec Ideal ⟨3, ![n0, n1, n2]⟩ φ) (init : u.Idx → Ideal φ)
    (h' : (⟨3, ![n0, n1, n2]⟩ : Shape).ReducesTo [2] ⟨2, ![n0, n1]⟩) (hu : 0 < u.numel) (a : Fin n0) (b : Fin n1) :
    Host.reduceAdd x init h' hu (ix2 a b) = init (Shape.Idx.first hu) + ∑ c : Fin n2, x (ix3 a b c) := by
  have h : (⟨3, ![n0, n1, n2]⟩ : Shape).Reduces [2] ⟨2, ![n0, n1]⟩ := ⟨h'.1, Nat.two_pos, h'.2⟩
  show Ideal.hostReduceAdd h' x _ (ix2 a b) = _
  rw [Ideal.hostReduceAdd_single h' h]
  refine congrArg (init (Shape.Idx.first hu) + ·) (Finset.sum_congr rfl fun c _ => congrArg x ?_)
  funext ax; apply Fin.ext
  match ax with
  | ⟨0, _⟩ => rfl
  | ⟨1, _⟩ => rfl
  | ⟨2, _⟩ => rfl

end Cert.Lib.HostBatchDot
-- ==== Proof.RefValue.lean ====
/-
  The reference's composed term is the specification, at the ideal values.

  Stage by stage, each array of the reference's straight line is read at an index given by its coordinates:
  the flattened and transposed key/value image is the image at the flat position; a linear layer is the row sum of
  products plus the bias; the elu-plus-one feature map is φ entry by entry; the two batched products and the two
  feature sums are finite sums over one coordinate; the normalised quotient is the ideal division of those. Composing
  the readings gives, at every (b, n, e), the specification's entry: both sides are the same arrangement of sums,
  products and one division, so nothing about finiteness is used — only `0 + x = x` for the zero initial values and the
  re-indexing of each contraction by its one coordinate.
-/
import proofs.«123487_j59785944761114_2_alg».proof.Proof.Gen.ReferenceIdeal
import proofs.«123487_j59785944761114_2_alg».proof.Proof.RefTerm
import proofs.«123487_j59785944761114_2_alg».proof.Proof.Spec
import proofs.«123487_j59785944761114_2_alg».proof.Proof.LibHostBatchDot
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StackMember

noncomputable section

namespace Cert.ReferenceIdeal.RefValue

open Cert.ReferenceIdeal Cert.ReferenceIdeal.RefTerm Idealize.ShloMosaic Idealize.ShloMosaic.ValueIdx
open Cert.Lib.HostBatchDot Cert
open Facts₀ Facts

/-! ## The layout stage -/

/-- The key/value image reshaped [8,256,64,64] → [8,256,4096] and transposed to [8,4096,256], at (b, m, d): the image at
    batch b, channel d and the flat position m = 64·h + w. -/
theorem kvflat_apply (a1 : FVec Ideal S8x256x64x64 .f32) (b : Fin 8) (m : Fin 4096) (d : Fin 256) :
    kvflat (F := Ideal) a1 (ix3 b m d) = LinAttn.X a1 b d m := by
  unfold kvflat
  refine (transpose_ix3_021_apply _ _ b m d).trans ?_
  unfold LinAttn.X
  refine shapeCast_apply a1 _ (ix3 b d m) (ix4 b d ⟨m.val / 64, by omega⟩ ⟨m.val % 64, by omega⟩) ?_
  rw [Shape.rowMajor_val_four, Shape.rowMajor_val_three]
  show ((b.val * 256 + d.val) * 64 + m.val / 64) * 64 + m.val % 64 = (b.val * 256 + d.val) * 4096 + m.val
  omega

/-! ## A linear layer -/

/-- x · Wᵀ + β at (b, n, e): the sum over the contracted feature of x[b,n,d] · W[e,d], plus β[e]. -/
theorem linear_apply (x : FVec Ideal S8x4096x256 .f32) (W : FVec Ideal S256x256 .f32) (β : FVec Ideal S256 .f32)
    (b : Fin 8) (n : Fin 4096) (e : Fin 256) :
    linear (F := Ideal) x W β (ix3 b n e) = (∑ d : Fin 256, x (ix3 b n d) * W (ix2 e d)) + β (ix1 e) := by
  unfold linear
  rw [addf_apply]
  refine congrArg₂ (· + ·) ?_ ?_
  · exact dotGeneral_rows_apply _ none x W b n e
  · refine (broadcastInDim_apply _ _ _ (ix3 b n e) (ix3 (0 : Fin 1) (0 : Fin 1) e)
      (fun a => match a with | ⟨0, _⟩ => rfl | ⟨1, _⟩ => rfl | ⟨2, _⟩ => rfl)).trans ?_
    exact broadcastInDim_apply _ _ β (ix3 (0 : Fin 1) (0 : Fin 1) e) (ix1 e) (fun a => match a with | ⟨0, _⟩ => rfl)

/-! ## The feature map -/

/-- elu + 1, entry by entry, is φ: the select on "x > 0" between x and 1 · expm1 of (0 where x > 0, else x), plus 1. -/
theorem feat_apply (x : FVec Ideal S8x4096x256 .f32) (i : S8x4096x256.Idx) :
    feat (F := Ideal) x i = LinAttn.phi (x i) :=
  LinAttn.phi_of_where (x i)

/-! ## The three projections -/

theorem Qm_apply (a0 : FVec Ideal S8x4096x256 .f32) (a2 : FVec Ideal S256x256 .f32) (a3 : FVec Ideal S256 .f32)
    (b : Fin 8) (n : Fin 4096) (e : Fin 256) :
    Qm (F := Ideal) a0 a2 a3 (ix3 b n e) = LinAttn.Q a0 a2 a3 b n e := by
  unfold Qm LinAttn.Q LinAttn.lin
  rw [feat_apply, linear_apply]

theorem Vm_apply (a1 : FVec Ideal S8x256x64x64 .f32) (a6 : FVec Ideal S256x256 .f32) (a7 : FVec Ideal S256 .f32)
    (b : Fin 8) (m : Fin 4096) (e : Fin 256) :
    Vm (F := Ideal) a1 a6 a7 (ix3 b m e) = LinAttn.V a1 a6 a7 b m e := by
  unfold Vm LinAttn.V LinAttn.lin
  rw [linear_apply]
  exact congrArg (· + a7 (ix1 e)) (Finset.sum_congr rfl fun d _ => congrArg (· * a6 (ix2 e d)) (kvflat_apply a1 b m d))

theorem Km_apply (a1 : FVec Ideal S8x256x64x64 .f32) (a4 : FVec Ideal S256x256 .f32) (a5 : FVec Ideal S256 .f32)
    (b : Fin 8) (m : Fin 4096) (c : Fin 256) :
    Km (F := Ideal) a1 a4 a5 (ix3 b m c) = LinAttn.K a1 a4 a5 b m c := by
  unfold Km LinAttn.K LinAttn.lin
  rw [feat_apply, linear_apply]
  exact congrArg (fun t => LinAttn.phi (t + a5 (ix1 c)))
    (Finset.sum_congr rfl fun d _ => congrArg (· * a4 (ix2 c d)) (kvflat_apply a1 b m d))

/-! ## The batched products and the feature sums -/

/-- Σ over tokens of k ⊗ v, per batch, at (b, c, e). -/
theorem KVm_apply (k v : FVec Ideal S8x4096x256 .f32) (b : Fin 8) (c e : Fin 256) :
    KVm (F := Ideal) k v (ix3 b c e) = ∑ m : Fin 4096, k (ix3 b m c) * v (ix3 b m e) := by
  unfold KVm
  exact dotGeneral_stackT_apply _ none k v b c e

/-- The sum over features, at (b, n): the zero initial value drops. -/
theorem rowsum_apply (x : FVec Ideal S8x4096x256 .f32) (b : Fin 8) (n : Fin 4096) :
    rowsum (F := Ideal) x (ix2 b n) = ∑ c : Fin 256, x (ix3 b n c) := by
  unfold rowsum
  refine (hostReduceAdd_last3_apply x _ _ _ b n).trans ?_
  show Ideal.ofBits .f32 0x00000000#32 + _ = _
  rw [Ideal.ofBits_zero_f32, zero_add]

/-- q · kvm per batch, at (b, n, d). -/
theorem num_apply (q : FVec Ideal S8x4096x256 .f32) (kvm : FVec Ideal S8x256x256 .f32) (b : Fin 8) (n : Fin 4096) (d : Fin 256) :
    num (F := Ideal) q kvm (ix3 b n d) = ∑ c : Fin 256, q (ix3 b n c) * kvm (ix3 b c d) := by
  unfold num
  exact StackMember.dotGeneral_stack_apply _ none q kvm b n d

/-- The normaliser (Σ q) · (Σ k) + ε, formed on a unit last axis and broadcast, at (b, n, d). -/
theorem denb_apply (q k : FVec Ideal S8x4096x256 .f32) (b : Fin 8) (n : Fin 4096) (d : Fin 256) :
    denb (F := Ideal) q k (ix3 b n d)
      = (∑ c : Fin 256, q (ix3 b n c)) * (∑ c : Fin 256, k (ix3 b n c)) + LinAttn.eps := by
  unfold denb
  refine (broadcastInDim_apply _ _ _ (ix3 b n d) (ix3 b n (0 : Fin 1))
    (fun a => match a with | ⟨0, _⟩ => rfl | ⟨1, _⟩ => rfl | ⟨2, _⟩ => rfl)).trans ?_
  rw [addf_apply]
  refine congrArg₂ (· + ·) ?_ rfl
  refine (broadcastInDim_apply _ _ _ (ix3 b n (0 : Fin 1)) (ix2 b n)
    (fun a => match a with | ⟨0, _⟩ => rfl | ⟨1, _⟩ => rfl)).trans ?_
  rw [mulf_apply, rowsum_apply, rowsum_apply]

/-- The normalised attention at (b, n, d). -/
theorem attn_apply (q k v : FVec Ideal S8x4096x256 .f32) (b : Fin 8) (n : Fin 4096) (d : Fin 256) :
    attn (F := Ideal) q k v (ix3 b n d)
      = Ideal.div (∑ c : Fin 256, q (ix3 b n c) * ∑ m : Fin 4096, k (ix3 b m c) * v (ix3 b m d))
          ((∑ c : Fin 256, q (ix3 b n c)) * (∑ c : Fin 256, k (ix3 b n c)) + LinAttn.eps) := by
  unfold attn
  show Ideal.div (num q (KVm k v) (ix3 b n d)) (denb q k (ix3 b n d)) = _
  rw [num_apply, denb_apply]
  exact congrArg (fun t => Ideal.div t _) (Finset.sum_congr rfl fun c _ => by rw [KVm_apply])

/-! ## The whole result -/

/-- The attention of the three projections at (b, n, d) is the specification's normalised row. -/
theorem attn_proj_apply (a0 : FVec Ideal S8x4096x256 .f32) (a1 : FVec Ideal S8x256x64x64 .f32) (a2 : FVec Ideal S256x256 .f32)
    (a3 : FVec Ideal S256 .f32) (a4 : FVec Ideal S256x256 .f32) (a5 : FVec Ideal S256 .f32) (a6 : FVec Ideal S256x256 .f32)
    (a7 : FVec Ideal S256 .f32) (b : Fin 8) (n : Fin 4096) (d : Fin 256) :
    attn (F := Ideal) (Qm a0 a2 a3) (Km a1 a4 a5) (Vm a1 a6 a7) (ix3 b n d)
      = LinAttn.attn (LinAttn.Q a0 a2 a3) (LinAttn.KV a1 a4 a5 a6 a7) (LinAttn.Z a1 a4 a5) b n d := by
  rw [attn_apply]
  unfold LinAttn.attn LinAttn.KV LinAttn.Z
  simp only [Qm_apply, Km_apply, Vm_apply]

theorem out_eq (a0 : FVec Ideal S8x4096x256 .f32) (a1 : FVec Ideal S8x256x64x64 .f32) (a2 : FVec Ideal S256x256 .f32) (a3 : FVec Ideal S256 .f32)
    (a4 : FVec Ideal S256x256 .f32) (a5 : FVec Ideal S256 .f32) (a6 : FVec Ideal S256x256 .f32) (a7 : FVec Ideal S256 .f32)
    (a8 : FVec Ideal S256x256 .f32) (a9 : FVec Ideal S256 .f32) :
    RefTerm.out (F := Ideal) a0 a1 a2 a3 a4 a5 a6 a7 a8 a9 = Cert.LinAttn.G a0 a1 a2 a3 a4 a5 a6 a7 a8 a9 := by
  funext i
  obtain ⟨b, n, e, rfl⟩ : ∃ (b : Fin 8) (n : Fin 4096) (e : Fin 256), i = ix3 b n e := ⟨i 0, i 1, i 2, eq_ix3 i⟩
  show RefTerm.out (F := Ideal) a0 a1 a2 a3 a4 a5 a6 a7 a8 a9 (ix3 b n e) = LinAttn.out a0 a1 a2 a3 a4 a5 a6 a7 a8 a9 b n e
  unfold RefTerm.out LinAttn.out LinAttn.lin
  rw [linear_apply]
  exact congrArg (· + a9 (ix1 e)) (Finset.sum_congr rfl fun d _ =>
    congrArg (· * a8 (ix2 e d)) (attn_proj_apply a0 a1 a2 a3 a4 a5 a6 a7 b n d))

end Cert.ReferenceIdeal.RefValue

end
-- ==== Proof.lean ====
/-
  Linear attention with the feature map elu(x) + 1, computed by two fused kernel regions, against its plain reference:
  the five claims of the certificate.

  Both idealized programs end, on every device, with the same extended reals in their result buffers: the specification's
  function G of the ten argument arrays (Proof/Spec.lean). On the kernel's side the first region leaves, per batch, the
  key–value matrix summed over all token positions (two tiles of 2048, added in order onto a zero block: over the
  extended reals the sum over all 4096) and the per-position normaliser; the second region forms the normalised attention
  rows from them and projects them (Proof/KReg0.lean, KReg1.lean, KValue.lean). On the reference's side the straight line
  of host operations, its outlined helpers written in place, composes to a term that is G entry by entry
  (Proof/RefRun.lean, RefValue.lean). The two arrangements differ only in the order of each product's factors, in the
  tiling of one sum, and in layout; no law used needs finite entries, so the precondition is never opened.
  The frames of the two kernel programs are the generated ones; the reference's frame is its run with the result dropped;
  the idealization rewrote nothing, so there is nothing to preserve.
-/
import proofs.«123487_j59785944761114_2_alg».proof.Defs
import proofs.«123487_j59785944761114_2_alg».proof.Proof.Gen.Kernel
import proofs.«123487_j59785944761114_2_alg».proof.Proof.Gen.Kernel.Skeleton
import proofs.«123487_j59785944761114_2_alg».proof.Proof.Gen.Kernel.Launch
import proofs.«123487_j59785944761114_2_alg».proof.Proof.Gen.Kernel.Points
import proofs.«123487_j59785944761114_2_alg».proof.Proof.Gen.Kernel.Frame
import proofs.«123487_j59785944761114_2_alg».proof.Proof.Gen.KernelIdeal
import proofs.«123487_j59785944761114_2_alg».proof.Proof.Gen.KernelIdeal.Skeleton
import proofs.«123487_j59785944761114_2_alg».proof.Proof.Gen.KernelIdeal.Launch
import proofs.«123487_j59785944761114_2_alg».proof.Proof.Gen.KernelIdeal.Points
import proofs.«123487_j59785944761114_2_alg».proof.Proof.Gen.KernelIdeal.Frame
import proofs.«123487_j59785944761114_2_alg».proof.Proof.Gen.ReferenceIdeal
import proofs.«123487_j59785944761114_2_alg».proof.Proof.Gen.Pre_finite_inputs
import proofs.«123487_j59785944761114_2_alg».proof.Proof.KValue
import proofs.«123487_j59785944761114_2_alg».proof.Proof.RefRun
import proofs.«123487_j59785944761114_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both runs end at G of the arguments, which agree. -/
theorem algebraic : Cert.algebraic_KernelIdeal_ReferenceIdeal := by
  intro m ρ m' ρ' _ hagree
  refine ⟨fun c => Cert.LinAttn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8, h9⟩ := hagree c
  rw [Cert.ReferenceIdeal.RefValue.out_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
